-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x4096x4096 : Shape := ⟨3, ![4, 4096, 4096]⟩
abbrev S4x4096 : Shape := ⟨2, ![4, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4x4096x4096 .f32) (main_arg1 : IVec S4x4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_c_0 : IVec S_ 32 := constantI S_ 32 1#32
  let main_v4 : IVec S4x4096 32 := broadcastInDim S4x4096 ![] bcast_S_S4x4096 main_c_0
  let main_v5 : IVec S4x4096 1 := cmpi .sge main_arg1 main_v4
  let main_c_1 : IVec S_ 32 := constantI S_ 32 1#32
  let main_v6 : IVec S4x4096 32 := broadcastInDim S4x4096 ![] bcast_S_S4x4096 main_c_1
  let main_v7 : IVec S4x4096 1 := cmpi .sle main_arg1 main_v6
  let main_v8 : IVec S4x4096 1 := andi main_v5 main_v7
  let main_c_2 : IVec S_ 1 := constantI S_ 1 1#1
  let main_v9 : IVec S_ 1 := (fun x v => Host.reduce IntOp.andi x v reducesTo_S4x4096_S_d0_1 h_S_) main_v8 main_c_2
  let main_v10 : IVec S_ 1 := andi main_v3 main_v9
  main_v10
-- ==== Kernel.lean ====
abbrev S4x4096x4096 : Shape := ⟨3, ![4, 4096, 4096]⟩
abbrev S4x4096 : Shape := ⟨2, ![4, 4096]⟩
abbrev S16384x4096 : Shape := ⟨2, ![16384, 4096]⟩
abbrev S4096 : Shape := ⟨1, ![4096]⟩
abbrev S1024 : Shape := ⟨1, ![1024]⟩
abbrev S_ : Shape := ⟨0, ![]⟩
abbrev S2048 : Shape := ⟨1, ![2048]⟩
abbrev S1x2048 : Shape := ⟨2, ![1, 2048]⟩
abbrev S16 : Shape := ⟨1, ![16]⟩
abbrev S1 : Shape := ⟨1, ![1]⟩
abbrev S1x1024 : Shape := ⟨2, ![1, 1024]⟩

abbrev nBuf : Table → Nat
  | .hbm => 4
  | .local .scVector .vmem => 2
  | _ => 0

abbrev bufTy : (tb : Table) → Fin (nBuf tb) → BufTy
  | .hbm, ⟨0, _⟩ => ⟨S4x4096x4096, .f32⟩
  | .hbm, ⟨1, _⟩ => ⟨S4x4096, .i32⟩
  | .hbm, ⟨2, _⟩ => ⟨S16384x4096, .f32⟩
  | .hbm, ⟨3, _⟩ => ⟨S4x4096, .f32⟩
  | .local .scVector .vmem, ⟨0, _⟩ => ⟨S4096, .i32⟩
  | .local .scVector .vmem, ⟨1, _⟩ => ⟨S1024, .f32⟩
  | _, _ => ⟨S4x4096x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_11 : BitVec 32 := 0#32
  ![v16.toNat, 0]
def k0_off2 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c2048_i32_14 : BitVec 32 := 2048#32
  ![v16.toNat, 2048]
@[reducible] def k0_t1_loop : Scf.Loop 32 :=
  let c0_i32_29 : BitVec 32 := 0#32
  let c16_i32 : BitVec 32 := 16#32
  let v53 : BitVec 32 := Scalar.addi c0_i32_29 c16_i32
  let c1_i32_30 : BitVec 32 := 1#32
  ⟨c0_i32_29, v53, c1_i32_30⟩
def k0_off3 (k0_t1 : Fin k0_t1_loop.trips) (c0_i32_42 : BitVec 32) : Fin 1 → Nat :=
  let c0_i32_41 : BitVec 32 := 0#32
  let c0_i32_29 : BitVec 32 := 0#32
  let c1_i32_30 : BitVec 32 := 1#32
  let arg9 : BitVec 32 := Scf.iv c0_i32_29 c1_i32_30 k0_t1
  let c128_i32 : BitVec 32 := 128#32
  let v121 : BitVec 32 := Scalar.muli arg9 c128_i32
  let v122 : BitVec 32 := Scalar.addi c0_i32_41 v121
  let v123 : BitVec 32 := Scalar.addi v122 c0_i32_42
  let v124 : Index := Scalar.indexCast v123
  ![v124.toNat]
@[reducible] def k0_t2_loop : Scf.Loop 32 :=
  let c0_i32_36 : BitVec 32 := 0#32
  let c16_i32_37 : BitVec 32 := 16#32
  let v61 : BitVec 32 := Scalar.addi c0_i32_36 c16_i32_37
  let c1_i32_38 : BitVec 32 := 1#32
  ⟨c0_i32_36, v61, c1_i32_38⟩
def k0_off4 (k0_t2 : Fin k0_t2_loop.trips) (c0_i32_42 : BitVec 32) : Fin 1 → Nat :=
  let c2048_i32_41 : BitVec 32 := 2048#32
  let c0_i32_36 : BitVec 32 := 0#32
  let c1_i32_38 : BitVec 32 := 1#32
  let arg9 : BitVec 32 := Scf.iv c0_i32_36 c1_i32_38 k0_t2
  let c128_i32 : BitVec 32 := 128#32
  let v121 : BitVec 32 := Scalar.muli arg9 c128_i32
  let v122 : BitVec 32 := Scalar.addi c2048_i32_41 v121
  let v123 : BitVec 32 := Scalar.addi v122 c0_i32_42
  let v124 : Index := Scalar.indexCast v123
  ![v124.toNat]
def k0_off5 (i : grid0.Coords) (v71 : BitVec 32) (v73 : BitVec 32) (v76 : BitVec 32) (v79 : BitVec 32) (v82 : BitVec 32) (v85 : BitVec 32) (v88 : BitVec 32) (v91 : BitVec 32) (v94 : BitVec 32) (v97 : BitVec 32) (v100 : BitVec 32) (v103 : BitVec 32) (v106 : BitVec 32) (v109 : BitVec 32) (v112 : BitVec 32) (v115 : BitVec 32) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4096_i32 : BitVec 32 := 4096#32
  let v117 : BitVec 32 := Scalar.muli v16 c4096_i32
  let v74 : BitVec 32 := Scalar.addi v71 v73
  let v77 : BitVec 32 := Scalar.addi v74 v76
  let v80 : BitVec 32 := Scalar.addi v77 v79
  let v83 : BitVec 32 := Scalar.addi v80 v82
  let v86 : BitVec 32 := Scalar.addi v83 v85
  let v89 : BitVec 32 := Scalar.addi v86 v88
  let v92 : BitVec 32 := Scalar.addi v89 v91
  let v95 : BitVec 32 := Scalar.addi v92 v94
  let v98 : BitVec 32 := Scalar.addi v95 v97
  let v101 : BitVec 32 := Scalar.addi v98 v100
  let v104 : BitVec 32 := Scalar.addi v101 v103
  let v107 : BitVec 32 := Scalar.addi v104 v106
  let v110 : BitVec 32 := Scalar.addi v107 v109
  let v113 : BitVec 32 := Scalar.addi v110 v112
  let v116 : BitVec 32 := Scalar.addi v113 v115
  let v118 : BitVec 32 := Scalar.addi v117 v116
  let c1_i32_40 : BitVec 32 := 1#32
  let v119 : BitVec 32 := Scalar.subi v118 c1_i32_40
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32 : BitVec 32 := 1024#32
  let v120 : BitVec 32 := Scalar.muli v26 c1024_i32
  ![v119.toNat, v120.toNat]

def k0_chk1 (i : grid0.Coords) (v71 : BitVec 32) (v73 : BitVec 32) (v76 : BitVec 32) (v79 : BitVec 32) (v82 : BitVec 32) (v85 : BitVec 32) (v88 : BitVec 32) (v91 : BitVec 32) (v94 : BitVec 32) (v97 : BitVec 32) (v100 : BitVec 32) (v103 : BitVec 32) (v106 : BitVec 32) (v109 : BitVec 32) (v112 : BitVec 32) (v115 : BitVec 32) : Prop :=
  (∀ a, (k0_off5 i v71 v73 v76 v79 v82 v85 v88 v91 v94 v97 v100 v103 v106 v109 v112 v115) a + S1x1024.size a ≤ S16384x4096.size a)
instance k0_chk1.dec : ∀ (i : grid0.Coords) (v71 : BitVec 32) (v73 : BitVec 32) (v76 : BitVec 32) (v79 : BitVec 32) (v82 : BitVec 32) (v85 : BitVec 32) (v88 : BitVec 32) (v91 : BitVec 32) (v94 : BitVec 32) (v97 : BitVec 32) (v100 : BitVec 32) (v103 : BitVec 32) (v106 : BitVec 32) (v109 : BitVec 32) (v112 : BitVec 32) (v115 : BitVec 32), Decidable (k0_chk1 i v71 v73 v76 v79 v82 v85 v88 v91 v94 v97 v100 v103 v106 v109 v112 v115) := fun i v71 v73 v76 v79 v82 v85 v88 v91 v94 v97 v100 v103 v106 v109 v112 v115 => decidable_of_iff' _ (Iff.of_eq (k0_chk1.eq_1 i v71 v73 v76 v79 v82 v85 v88 v91 v94 v97 v100 v103 v106 v109 v112 v115))
theorem k0_off5_inb : ∀ (i : grid0.Coords) (v71 : BitVec 32) (v73 : BitVec 32) (v76 : BitVec 32) (v79 : BitVec 32) (v82 : BitVec 32) (v85 : BitVec 32) (v88 : BitVec 32) (v91 : BitVec 32) (v94 : BitVec 32) (v97 : BitVec 32) (v100 : BitVec 32) (v103 : BitVec 32) (v106 : BitVec 32) (v109 : BitVec 32) (v112 : BitVec 32) (v115 : BitVec 32) (k0_hw1 : k0_chk1 i v71 v73 v76 v79 v82 v85 v88 v91 v94 v97 v100 v103 v106 v109 v112 v115), ∀ a, (k0_off5 i v71 v73 v76 v79 v82 v85 v88 v91 v94 v97 v100 v103 v106 v109 v112 v115) a + S1x1024.size a ≤ S16384x4096.size a := fun i v71 v73 v76 v79 v82 v85 v88 v91 v94 v97 v100 v103 v106 v109 v112 v115 k0_hw1 => k0_hw1

def k0_off6 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32 : BitVec 32 := 1024#32
  let v120 : BitVec 32 := Scalar.muli v26 c1024_i32
  ![v16.toNat, v120.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096x4096_S16384x4096 : S4x4096x4096.ShapeCasts S16384x4096
  inb_S4096_S2048_0 : ∀ a, (![0] : Fin 1 → Nat) a + S2048.size a ≤ S4096.size a
  squeezes_S1x2048_S2048 : S1x2048.Squeezes S2048
  inb_S4096_S2048_2048 : ∀ a, (![2048] : Fin 1 → Nat) a + S2048.size a ≤ S4096.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  squeezes_S1x1024_S1024 : S1x1024.Squeezes S1024
  hcc0_scratch2 : 0 + S_.numel ≤ 4
  hcc0_scratch3 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x2048.size a ≤ S4x4096.size a
  k0_off2_inb : ∀ i : grid0.Coords, ∀ a, (k0_off2 i) a + S1x2048.size a ≤ S4x4096.size a
  k0_t1_ok : k0_t1_loop.OK
  k0_off3_inb : ∀ k0_t1 : Fin k0_t1_loop.trips, ∀ (r : Fin 8), ∀ a, (k0_off3 k0_t1 (BitVec.ofNat 32 (16 * r.val))) a + S16.size a ≤ S4096.size a
  k0_t2_ok : k0_t2_loop.OK
  k0_off4_inb : ∀ k0_t2 : Fin k0_t2_loop.trips, ∀ (r : Fin 8), ∀ a, (k0_off4 k0_t2 (BitVec.ofNat 32 (16 * r.val))) a + S16.size a ≤ S4096.size a
  k0_off6_inb : ∀ i : grid0.Coords, ∀ a, (k0_off6 i) a + S1x1024.size a ≤ S4x4096.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S_ : Shape := ⟨0, ![]⟩
abbrev S4 : Shape := ⟨1, ![4]⟩
abbrev S4x1 : Shape := ⟨2, ![4, 1]⟩
abbrev S4x2 : Shape := ⟨2, ![4, 2]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S_, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i1⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i1⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i32⟩
  | .hbm, ⟨22, _⟩ => ⟨S4x1, .i32⟩
  | .hbm, ⟨23, _⟩ => ⟨S4x1, .i32⟩
  | .hbm, ⟨24, _⟩ => ⟨S4x2, .i32⟩
  | .hbm, ⟨25, _⟩ => ⟨S4x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S4x4096_S4_d1 : S4x4096.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  gather_S4x4096x4096_S4x2_S4x4096_1_01_n_n_01_1_114096_wf : GatherDims.WF S4x4096x4096 S4x2 S4x4096 [1] [0, 1] [] [0, 1] [] 1 ![1, 1, 4096]

variable [Facts₀]

def gather_S4x4096x4096_S4x2_S4x4096_1_01_n_n_01_1_114096 : GatherDims S4x4096x4096 S4x2 S4x4096 where
  offsetDims := [1]
  collapsedSliceDims := [0, 1]
  operandBatchingDims := []
  startIndicesBatchingDims := []
  startIndexMap := [0, 1]
  indexVectorDim := 1
  sliceSizes := ![1, 1, 4096]
  wf := gather_S4x4096x4096_S4x2_S4x4096_1_01_n_n_01_1_114096_wf

class Facts : Prop extends Facts₀ where

variable [Facts]
-- ==== Proof.PreOnes.lean ====
/-
  The precondition, read back on the mask. The precondition's value is the conjunction of two
  statements: every |a0| entry is below +inf, and every mask word v satisfies (v ≥ 1) ∧ (v ≤ 1) as
  signed 32-bit words. When that value is 1, the second conjunct holds at every index, and a signed
  word with 1 ≤ v ≤ 1 is the word 1.
-/
import proofs.«209917_g9457517986232_cont_9to1c4b_207_18_alg».proof.Pre_input_domain
import proofs.«209917_g9457517986232_cont_9to1c4b_207_18_alg».proof.Proof.Gen.Pre_input_domain
import Idealize.ShloMosaic.Lib.ReduceAll
import Idealize.ShloMosaic.Lib.ValueIdx

namespace Cert.Proof.PreOnes

open Idealize.ShloMosaic

/-- A shape of rank 0 has exactly one index. -/
instance : Subsingleton Cert.Pre_input_domain.S_.Idx := ⟨fun a b => funext fun d => d.elim0⟩

/-- A 32-bit word that is both ≥ 1 and ≤ 1, read signed, is 1: the two bounds pin its signed
    value, and a word is determined by its signed value. -/
theorem word_eq_one (v : BitVec 32)
    (h : IntOp.andi (IntOp.cmpi .sge v 1#32) (IntOp.cmpi .sle v 1#32) = 1#1) : v = 1#32 := by
  obtain ⟨h1, h2⟩ := IntOp.andi_eq_one.1 h
  rw [IntOp.cmpi_sge] at h1
  rw [IntOp.cmpi_sle] at h2
  exact BitVec.eq_of_toInt_eq (le_antisymm h2 h1)

/-- Under the precondition every mask word is 1. The precondition is (A and B) at the single index
    of a rank-0 result, with B the and-reduction over the whole mask of (v ≥ 1) ∧ (v ≤ 1); an
    and-reduction that is 1 met only 1s, so the elementwise test holds at x. -/
theorem mask_ones {F : FTy → Type} [FloatOps F] (a0 : FVec F Cert.Pre_input_domain.S4x4096x4096 .f32)
    (a1 : IVec Cert.Pre_input_domain.S4x4096 32)
    (h : Cert.Pre_input_domain.fn (F := F) a0 a1 = fun _ => 1#1) : ∀ x, a1 x = 1#32 := by
  intro x
  have e := congrFun h ValueIdx.ix0
  dsimp only [Cert.Pre_input_domain.fn] at e
  obtain ⟨-, e2⟩ := IntOp.andi_eq_one.1 (show IntOp.andi _ _ = 1#1 from e)
  exact word_eq_one _ (Host.reduce_andi_all _ _ _ _ _ e2 x)

end Cert.Proof.PreOnes
-- ==== Proof.RefValue.lean ====
/-
  The reference program's value under an all-ones mask, read at an index.
  The reference computes seq[b] = (sum over the row of the mask) − 1 and gathers out[b, :] = e[b', seq', :], where
  b' and seq' are b and seq[b] with a negative value wrapped round by adding the axis extent. With every mask
  word 1: the row sum is 4096 ones added to 0, the word 4096; seq[b] = 4095, not negative; b < 4 is not
  negative; the pair (b, 4095) lies inside both axes, so the gather's clamp changes nothing, and
  out[b, k] = e[b, 4095, k].
-/
import proofs.«209917_g9457517986232_cont_9to1c4b_207_18_alg».proof.Proof.Gen.ReferenceIdeal.Read
import Idealize.ShloMosaic.Lib.ValueIdx
import Idealize.ShloMosaic.Lib.Pipeline.Value
import Idealize.ShloMosaic.PureOps.Reduce

noncomputable section

namespace Cert.Proof.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable {F : FTy → Type} [FloatOps F]

/-- 4096 − 1 = 4095 is not negative as a signed 32-bit word, so the wrap-around select keeps it. -/
theorem seq_word : Scalar.select (IntOp.cmpi .slt (IntOp.subi 4096#32 1#32) 0#32)
    (IntOp.addi (IntOp.subi 4096#32 1#32) 4096#32) (IntOp.subi 4096#32 1#32) = 4095#32 := by decide

/-- A word c < 4 is not negative as a signed 32-bit word, so the wrap-around select keeps it. -/
theorem batch_sel (c : Fin 4) : Scalar.select (IntOp.cmpi .slt (BitVec.ofNat 32 c.val) 0#32)
    (IntOp.addi (BitVec.ofNat 32 c.val) 4#32) (BitVec.ofNat 32 c.val) = BitVec.ofNat 32 c.val := by
  revert c; decide

/-- A word c < 4, read signed and clamped to [0, 3], is c. -/
theorem clamp_batch (c : Fin 4) : min (BitVec.ofNat 32 c.val).toInt.toNat 3 = c.val := by
  revert c; decide

/-- The word 4095, read signed and clamped to [0, 4095], is 4095. -/
theorem clamp_seq : min (4095#32 : BitVec 32).toInt.toNat 4095 = 4095 := by decide

/-- Adding the word 1 once per element of a finite set, starting from `init`, gives `init` plus the
    number of elements (as a 32-bit word): induction on the set, one element at a time. -/
theorem fold_addi_ones {ι : Type} (S : Finset ι) (init : BitVec 32) :
    S.fold IntOp.addi init (fun _ => 1#32) = init + BitVec.ofNat 32 S.card := by
  induction S using Finset.cons_induction with
  | empty => simp
  | cons a S ha ih =>
    rw [Finset.fold_cons, ih, Finset.card_cons, BitVec.ofNat_add]
    show (1#32 : BitVec 32) + (init + BitVec.ofNat 32 S.card) = init + (BitVec.ofNat 32 S.card + BitVec.ofNat 32 1)
    rw [BitVec.add_comm (1#32), BitVec.add_assoc]

/-- The row sums of an all-ones mask: each of the 4 rows adds 4096 ones to 0, which is the word 4096. -/
theorem rowsum_ones (a1 : (⟨S4x4096, .i32⟩ : BufTy).Contents (Elt F)) (h1 : ∀ x, a1 x = 1#32) (j : S4.Idx) :
    val_main_v0 (F := F) a1 j = 4096#32 := by
  have hR : S4x4096.Reduces [1] S4 := by decide
  unfold val_main_v0
  rw [Host.reduce_eq_fold_single IntOp.addi a1 _ reducesTo_S4x4096_S4_d1 hR h_S_ j]
  rw [show (a1 ∘ hR.lift j) = fun _ => 1#32 from funext fun k => h1 _]
  rw [fold_addi_ones, Finset.card_univ, Fintype.card_fin]
  rfl

/-- The sequence position under an all-ones mask: 4096 − 1 = 4095, kept by the wrap-around select. -/
theorem seq_ones (a1 : (⟨S4x4096, .i32⟩ : BufTy).Contents (Elt F)) (h1 : ∀ x, a1 x = 1#32) (j : S4.Idx) :
    val_main_v13 (F := F) a1 j = 4095#32 := by
  simp only [val_main_v13_apply, val_main_v10_apply, val_main_v12_apply, val_main_v2_apply, rowsum_ones a1 h1,
    val_main_v1_apply, val_main_c_0_apply, val_main_v9_apply, val_main_c_3_apply, val_main_v11_apply,
    val_main_c_4_apply]
  exact seq_word

/-- The batch position: the iota value b < 4, kept by the wrap-around select. -/
theorem batch_word (j : S4.Idx) : val_main_v8 (F := F) j = BitVec.ofNat 32 (j 0).val := by
  obtain ⟨c, rfl⟩ : ∃ c : Fin 4, j = ix1 c := ⟨j 0, eq_ix1 j⟩
  simp only [val_main_v8_apply, val_main_v5_apply, val_main_v7_apply, val_main_v3_apply, val_main_v4_apply,
    val_main_c_1_apply, val_main_v6_apply, val_main_c_2_apply]
  exact batch_sel c

/-- Column 0 of the index pairs is the batch position. -/
theorem idx_col0 (a1 : (⟨S4x4096, .i32⟩ : BufTy).Contents (Elt F)) (b : Fin 4) :
    val_main_v16 (F := F) a1 (ix2 b (0 : Fin 2)) = BitVec.ofNat 32 b.val := by
  unfold val_main_v16
  refine (concatenate_pair_apply_left (t := S4x2) (s₁ := S4x1) (s₂ := S4x1) (1 : Fin 2) _ _
    concatenates_S4x1_S4x1_S4x2_d1 (ix2 b (0 : Fin 2)) rfl
    (ix2 b (0 : Fin 1)) (fun d => match d with | ⟨0, _⟩ => rfl | ⟨1, _⟩ => rfl)).trans ?_
  rw [val_main_v14_apply, batch_word]

/-- Column 1 of the index pairs is the sequence position, 4095 under an all-ones mask. -/
theorem idx_col1 (a1 : (⟨S4x4096, .i32⟩ : BufTy).Contents (Elt F)) (h1 : ∀ x, a1 x = 1#32) (b : Fin 4) :
    val_main_v16 (F := F) a1 (ix2 b (1 : Fin 2)) = 4095#32 := by
  unfold val_main_v16
  refine (concatenate_pair_apply_right (t := S4x2) (s₁ := S4x1) (s₂ := S4x1) (1 : Fin 2) _ _
    concatenates_S4x1_S4x1_S4x2_d1 (ix2 b (1 : Fin 2)) rfl rfl
    (ix2 b (0 : Fin 1)) (fun d hd => match d, hd with | ⟨0, _⟩, _ => rfl | ⟨1, _⟩, hd => absurd rfl hd) rfl).trans ?_
  rw [val_main_v15_apply, seq_ones a1 h1]

/-- The gather read at result index (b, k). Its dimension numbers collapse operand axes 0 and 1, which take their
    start from columns 0 and 1 of row b of the index pairs (read signed, clamped to the axis), and keep axis 2 whole,
    which takes the result's offset coordinate k. So the element read is the operand's at [r0, r1, k]. -/
theorem gather_apply {α : Type} (x : S4x4096x4096.Idx → α) (idx : IVec S4x2 32) (b : Fin 4) (k : Fin 4096)
    (r0 : Fin 4) (r1 : Fin 4096)
    (h0 : min (idx (ix2 b (0 : Fin 2))).toInt.toNat 3 = r0.val)
    (h1 : min (idx (ix2 b (1 : Fin 2))).toInt.toNat 4095 = r1.val) :
    Host.gather gather_S4x4096x4096_S4x2_S4x4096_1_01_n_n_01_1_114096 x idx (ix2 b k) = x (ix3 r0 r1 k) := by
  unfold Host.gather
  congr 1
  funext a
  refine Fin.ext ?_
  match a with
  | ⟨0, _⟩ =>
    show gather_S4x4096x4096_S4x2_S4x4096_1_01_n_n_01_1_114096.start (ix2 b k) idx 0 + gather_S4x4096x4096_S4x2_S4x4096_1_01_n_n_01_1_114096.batchCoord (ix2 b k) 0 + gather_S4x4096x4096_S4x2_S4x4096_1_01_n_n_01_1_114096.offCoord (ix2 b k) 0 = r0.val
    rw [GatherDims.batchCoord_eq_zero _ _ _ List.not_mem_nil,
      GatherDims.offCoord_eq_zero _ _ _ (fun h => ((GatherDims.mem_sKept _ _).mp h).1 (show (0 : Fin 3) ∈ ([0, 1] : List (Fin 3)) from by decide))]
    simp only [Nat.add_zero]
    unfold GatherDims.start
    rw [dif_pos (show (0 : Fin 3) ∈ gather_S4x4096x4096_S4x2_S4x4096_1_01_n_n_01_1_114096.startIndexMap from (show (0 : Fin 3) ∈ ([0, 1] : List (Fin 3)) from by decide))]
    have hsi : gather_S4x4096x4096_S4x2_S4x4096_1_01_n_n_01_1_114096.siIdx (ix2 b k) ⟨List.idxOf (0 : Fin 3) gather_S4x4096x4096_S4x2_S4x4096_1_01_n_n_01_1_114096.startIndexMap,
        List.idxOf_lt_length_iff.2 (show (0 : Fin 3) ∈ ([0, 1] : List (Fin 3)) from by decide)⟩ = ix2 b (0 : Fin 2) := by
      funext c; refine Fin.ext ?_
      match c with
      | ⟨0, _⟩ => rfl
      | ⟨1, _⟩ => rfl
    rw [hsi]
    exact h0
  | ⟨1, _⟩ =>
    show gather_S4x4096x4096_S4x2_S4x4096_1_01_n_n_01_1_114096.start (ix2 b k) idx 1 + gather_S4x4096x4096_S4x2_S4x4096_1_01_n_n_01_1_114096.batchCoord (ix2 b k) 1 + gather_S4x4096x4096_S4x2_S4x4096_1_01_n_n_01_1_114096.offCoord (ix2 b k) 1 = r1.val
    rw [GatherDims.batchCoord_eq_zero _ _ _ List.not_mem_nil,
      GatherDims.offCoord_eq_zero _ _ _ (fun h => ((GatherDims.mem_sKept _ _).mp h).1 (show (1 : Fin 3) ∈ ([0, 1] : List (Fin 3)) from by decide))]
    simp only [Nat.add_zero]
    unfold GatherDims.start
    rw [dif_pos (show (1 : Fin 3) ∈ gather_S4x4096x4096_S4x2_S4x4096_1_01_n_n_01_1_114096.startIndexMap from (show (1 : Fin 3) ∈ ([0, 1] : List (Fin 3)) from by decide))]
    have hsi : gather_S4x4096x4096_S4x2_S4x4096_1_01_n_n_01_1_114096.siIdx (ix2 b k) ⟨List.idxOf (1 : Fin 3) gather_S4x4096x4096_S4x2_S4x4096_1_01_n_n_01_1_114096.startIndexMap,
        List.idxOf_lt_length_iff.2 (show (1 : Fin 3) ∈ ([0, 1] : List (Fin 3)) from by decide)⟩ = ix2 b (1 : Fin 2) := by
      funext c; refine Fin.ext ?_
      match c with
      | ⟨0, _⟩ => rfl
      | ⟨1, _⟩ => rfl
    rw [hsi]
    exact h1
  | ⟨2, _⟩ =>
    show gather_S4x4096x4096_S4x2_S4x4096_1_01_n_n_01_1_114096.start (ix2 b k) idx 2 + gather_S4x4096x4096_S4x2_S4x4096_1_01_n_n_01_1_114096.batchCoord (ix2 b k) 2 + gather_S4x4096x4096_S4x2_S4x4096_1_01_n_n_01_1_114096.offCoord (ix2 b k) 2 = k.val
    rw [GatherDims.batchCoord_eq_zero _ _ _ List.not_mem_nil]
    have hs : gather_S4x4096x4096_S4x2_S4x4096_1_01_n_n_01_1_114096.start (ix2 b k) idx 2 = 0 := by
      unfold GatherDims.start
      rw [dif_neg (show ¬ (2 : Fin 3) ∈ gather_S4x4096x4096_S4x2_S4x4096_1_01_n_n_01_1_114096.startIndexMap from
        (show ¬ (2 : Fin 3) ∈ ([0, 1] : List (Fin 3)) from by decide))]
    have ho : gather_S4x4096x4096_S4x2_S4x4096_1_01_n_n_01_1_114096.offCoord (ix2 b k) 2 = k.val := by
      unfold GatherDims.offCoord
      rw [dif_pos (show (2 : Fin 3) ∈ gather_S4x4096x4096_S4x2_S4x4096_1_01_n_n_01_1_114096.sKept from by decide)]
      rfl
    rw [hs, ho]
    omega

/-- THE REFERENCE AT AN INDEX. Under an all-ones mask the reference's result at (b, k) is the embedding at
    [b, 4095, k]: row b of the index pairs is (b, 4095), both already inside their axes, so the clamps are the identity. -/
theorem ref_apply (a0 : (⟨S4x4096x4096, .f32⟩ : BufTy).Contents (Elt F))
    (a1 : (⟨S4x4096, .i32⟩ : BufTy).Contents (Elt F)) (h1 : ∀ x, a1 x = 1#32) (b : Fin 4) (k : Fin 4096) :
    val_main_v17 (F := F) a0 a1 (ix2 b k) = a0 (ix3 b (⟨4095, by decide⟩ : Fin 4096) k) := by
  unfold val_main_v17
  exact gather_apply a0 (val_main_v16 (F := F) a1) b k b ⟨4095, by decide⟩
    (by rw [idx_col0]; exact clamp_batch b) (by rw [idx_col1 a1 h1]; exact clamp_seq)

/-- The same as one equation between arrays. -/
theorem ref_eq (a0 : (⟨S4x4096x4096, .f32⟩ : BufTy).Contents (Elt F))
    (a1 : (⟨S4x4096, .i32⟩ : BufTy).Contents (Elt F)) (h1 : ∀ x, a1 x = 1#32) :
    val_main_v17 (F := F) a0 a1 = fun j => a0 (ix3 (j 0) (⟨4095, by decide⟩ : Fin 4096) (j 1)) := by
  funext j
  obtain ⟨b, k, rfl⟩ : ∃ (b : Fin 4) (k : Fin 4096), j = ix2 b k := ⟨j 0, j 1, eq_ix2 j⟩
  exact ref_apply a0 a1 h1 b k

/-- The same two statements on the composed term of the reference program's operations (the term its run
    states for the result), which is the staged value by unfolding. -/
theorem ref_apply_run (a0 : (⟨S4x4096x4096, .f32⟩ : BufTy).Contents (Elt F))
    (a1 : (⟨S4x4096, .i32⟩ : BufTy).Contents (Elt F)) (h1 : ∀ x, a1 x = 1#32) (b : Fin 4) (k : Fin 4096) :
    (Host.gather gather_S4x4096x4096_S4x2_S4x4096_1_01_n_n_01_1_114096 (a0) (concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt (subi (Host.reduce IntOp.addi (a1) (constantI S_ 32 0#32) reducesTo_S4x4096_S4_d1 h_S_) (broadcastInDim S4 ![] bcast_S_S4 (constantI S_ 32 1#32))) (broadcastInDim S4 ![] bcast_S_S4 (constantI S_ 32 0#32))) (addi (subi (Host.reduce IntOp.addi (a1) (constantI S_ 32 0#32) reducesTo_S4x4096_S4_d1 h_S_) (broadcastInDim S4 ![] bcast_S_S4 (constantI S_ 32 1#32))) (broadcastInDim S4 ![] bcast_S_S4 (constantI S_ 32 4096#32))) (subi (Host.reduce IntOp.addi (a1) (constantI S_ 32 0#32) reducesTo_S4x4096_S4_d1 h_S_) (broadcastInDim S4 ![] bcast_S_S4 (constantI S_ 32 1#32)))))⟩] concatenates_S4x1_S4x1_S4x2_d1)) (ix2 b k)
      = a0 (ix3 b (⟨4095, by decide⟩ : Fin 4096) k) :=
  (congrFun (val_main_v17_eq (F := F) a0 a1) (ix2 b k)).trans (ref_apply a0 a1 h1 b k)

theorem ref_eq_run (a0 : (⟨S4x4096x4096, .f32⟩ : BufTy).Contents (Elt F))
    (a1 : (⟨S4x4096, .i32⟩ : BufTy).Contents (Elt F)) (h1 : ∀ x, a1 x = 1#32) :
    Host.gather gather_S4x4096x4096_S4x2_S4x4096_1_01_n_n_01_1_114096 (a0) (concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt (subi (Host.reduce IntOp.addi (a1) (constantI S_ 32 0#32) reducesTo_S4x4096_S4_d1 h_S_) (broadcastInDim S4 ![] bcast_S_S4 (constantI S_ 32 1#32))) (broadcastInDim S4 ![] bcast_S_S4 (constantI S_ 32 0#32))) (addi (subi (Host.reduce IntOp.addi (a1) (constantI S_ 32 0#32) reducesTo_S4x4096_S4_d1 h_S_) (broadcastInDim S4 ![] bcast_S_S4 (constantI S_ 32 1#32))) (broadcastInDim S4 ![] bcast_S_S4 (constantI S_ 32 4096#32))) (subi (Host.reduce IntOp.addi (a1) (constantI S_ 32 0#32) reducesTo_S4x4096_S4_d1 h_S_) (broadcastInDim S4 ![] bcast_S_S4 (constantI S_ 32 1#32)))))⟩] concatenates_S4x1_S4x1_S4x2_d1)
      = fun j => a0 (ix3 (j 0) (⟨4095, by decide⟩ : Fin 4096) (j 1)) :=
  (val_main_v17_eq (F := F) a0 a1).trans (ref_eq a0 a1 h1)

end Cert.Proof.RefValue

end
-- ==== Proof.IdealSetup.lean ====
/-
  The idealized kernel, as the SparseCore launch theorem sees it, and the mathematics of its data movement.

  Sixteen vector subcores run the body, subcore `j` for batch row `b = j / 4` and quarter `q = j % 4`. Each one
  sums the 4096 words of row `b` of the mask (two half-row copies into its own memory, eight running lane sums
  over each half, the sums added up to one word `total`), then copies the 1024 words at columns `[1024 q, 1024 q + 1024)`
  of row `4096 b + total - 1` of the embeddings — read as a `16384 x 4096` matrix — into its own memory and from there
  into the same columns of row `b` of the result.  Where every mask word is one, `total = 4096` and the row copied is
  `4096 b + 4095`: the last token of batch `b`.  So the result at `[b, k]` is the matrix at `[4096 b + 4095, k]`
  (`lastRow`, `result`), the sixteen pieces written being the tiling of the `4 x 4096` result by the rectangles
  `{b} x [1024 q, 1024 q + 1024)` (`tileRect`: pairwise disjoint, covering).
-/
import proofs.«209917_g9457517986232_cont_9to1c4b_207_18_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«209917_g9457517986232_cont_9to1c4b_207_18_alg».proof.Proof.Gen.KernelIdeal
import proofs.«209917_g9457517986232_cont_9to1c4b_207_18_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The embeddings (rank 3), the mask, the embeddings as a matrix of rows, the result: as locations of device `d`. -/
abbrev eLoc (d : Dev nD) : Loc nD τ sig := (SparseCore.T d).loc main_arg0
abbrev kLoc (d : Dev nD) : Loc nD τ sig := (SparseCore.T d).loc main_arg1
abbrev rLoc (d : Dev nD) : Loc nD τ sig := (SparseCore.T d).loc main_v0
abbrev oLoc (d : Dev nD) : Loc nD τ sig := (SparseCore.T d).loc main_v1

/-! ## The sixteen pieces of the result -/

/-- Subcore `j` writes row `j / 4`, columns `[1024 (j % 4), 1024 (j % 4) + 1024)`. -/
def tileOff (j : Fin 16) : Fin 2 → Nat := ![j.val / 4, (j.val % 4) * 1024]

theorem tileOff_inb (j : Fin 16) : ∀ a, tileOff j a + S1x1024.size a ≤ S4x4096.size a := by
  intro a
  have := j.isLt
  match a with
  | 0 => show j.val / 4 + 1 ≤ 4; omega
  | 1 => show (j.val % 4) * 1024 + 1024 ≤ 4096; omega

abbrev tileRect (j : Fin 16) : Rect S4x4096 := Rect.unit (s := S4x4096) (tileOff j) S1x1024.size (tileOff_inb j)

/-- The elements of the result subcore `j` writes. -/
def tileSet (j : Fin 16) : Finset S4x4096.Idx := (tileRect j).set

theorem mem_tileSet (j : Fin 16) (x : S4x4096.Idx) :
    x ∈ tileSet j ↔ (x 0).val = j.val / 4 ∧ (j.val % 4) * 1024 ≤ (x 1).val ∧ (x 1).val < (j.val % 4) * 1024 + 1024 := by
  unfold tileSet
  rw [Rect.mem_set_unit]
  constructor
  · intro h
    have h0 := h 0
    have h1 := h 1
    simp only [tileOff, Matrix.cons_val_zero, Matrix.cons_val_one] at h0 h1
    omega
  · intro ⟨h0, h1, h2⟩ a
    match a with
    | 0 => show j.val / 4 ≤ (x 0).val ∧ (x 0).val < j.val / 4 + 1; omega
    | 1 => show (j.val % 4) * 1024 ≤ (x 1).val ∧ (x 1).val < (j.val % 4) * 1024 + 1024; omega

theorem tiles_disjoint : ∀ i ∈ (Finset.univ : Finset (Fin 16)), ∀ j ∈ (Finset.univ : Finset (Fin 16)), i ≠ j → Disjoint (tileSet i) (tileSet j) := by
  intro i _ j _ hij
  refine Finset.disjoint_left.mpr fun x hi hj => hij (Fin.ext ?_)
  rw [mem_tileSet] at hi hj
  have := i.isLt; have := j.isLt
  omega

theorem tiles_cover : (Finset.univ : Finset (Fin 16)).biUnion tileSet = Finset.univ := by
  refine Finset.eq_univ_iff_forall.mpr fun x => Finset.mem_biUnion.mpr ?_
  have h0 : (x 0).val < 4 := (x 0).isLt
  have h1 : (x 1).val < 4096 := (x 1).isLt
  refine ⟨⟨4 * (x 0).val + (x 1).val / 1024, by omega⟩, Finset.mem_univ _, ?_⟩
  rw [mem_tileSet]
  show (x 0).val = (4 * (x 0).val + (x 1).val / 1024) / 4 ∧ ((4 * (x 0).val + (x 1).val / 1024) % 4) * 1024 ≤ (x 1).val
    ∧ (x 1).val < ((4 * (x 0).val + (x 1).val / 1024) % 4) * 1024 + 1024
  omega

/-! ## The result -/

/-- The last token's row of batch `b` in the matrix of rows, at column `k`. -/
def lastRow (x : S4x4096.Idx) : S16384x4096.Idx :=
  ix2 (⟨(x 0).val * 4096 + 4095, by have h : (x 0).val < 4 := (x 0).isLt; omega⟩ : Fin 16384) (x 1)

/-- The result array as a function of the matrix of rows: at `[b, k]` the matrix at `[4096 b + 4095, k]`. -/
def result (r : S16384x4096.Idx → Elt F .f32) : S4x4096.Idx → Elt F .f32 := fun x => r (lastRow x)

end Cert.Proof.KI

end
-- ==== Proof.ReshapeRow.lean ====
/-
  The embeddings read as a matrix of rows. Reshaping a 4 x 4096 x 4096 array to 16384 x 4096 keeps every element
  at its row-major position. The position of [4096 b + 4095, k] in the matrix is (4096 b + 4095) 4096 + k, which is
  the position of [b, 4095, k] in the rank-3 array: the last token's row of batch b, at column k.
-/
import proofs.«209917_g9457517986232_cont_9to1c4b_207_18_alg».proof.Proof.IdealSetup
import Idealize.ShloMosaic.Lib.Pipeline.Value
import Idealize.ShloMosaic.Lib.ValueIdx

namespace Cert.Proof.KI

open Cert.KernelIdeal Idealize.ShloMosaic Idealize.ShloMosaic.ValueIdx

/-- The matrix of rows at the last token's row of batch b, column k, is the embeddings at [b, 4095, k]: the two
    indices have the same row-major position, ((b 4096 + 4095) 4096 + k). -/
theorem reshape_lastRow {F : FTy → Type} (a0 : S4x4096x4096.Idx → Elt F .f32)
    (h : S4x4096x4096.ShapeCasts S16384x4096) (x : S4x4096.Idx) :
    shapeCast S16384x4096 a0 h (lastRow x) = a0 (ix3 (x 0) (⟨4095, by decide⟩ : Fin 4096) (x 1)) :=
  shapeCast_apply a0 h _ _ (by
    rw [Shape.rowMajor_val_three, Shape.rowMajor_val_two]
    show ((x 0).val * 4096 + 4095) * 4096 + (x 1).val = ((x 0).val * 4096 + 4095) * 4096 + (x 1).val
    rfl)

end Cert.Proof.KI
-- ==== Proof.IdealTile.lean ====
/-
  One vector subcore's task of the idealized kernel, run once at a symbolic subcore.
-/
import proofs.«209917_g9457517986232_cont_9to1c4b_207_18_alg».proof.Proof.IdealSetup
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.KernelIdeal.main_v0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S4x4096 EltTy.i32)
local notation "oW" => (Memref.whole Cert.KernelIdeal.main_v1_scv : Memref Cert.KernelIdeal.sig Kind.scVector Space.hbm Cert.KernelIdeal.S4x4096 EltTy.f32)
local notation "mV" => (Memref.whole Cert.KernelIdeal.cc0_scratch0 : Memref Cert.KernelIdeal.sig Kind.scVector Space.vmem Cert.KernelIdeal.S4096 EltTy.i32)
local notation "wV" => (Memref.whole Cert.KernelIdeal.cc0_scratch1 : Memref Cert.KernelIdeal.sig Kind.scVector Space.vmem Cert.KernelIdeal.S1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev thr : Thread nD τ := V d (cV L) (jV L)

abbrev cA : GSem nD τ sig := (thr d L, .dma cc0_scratch2.sem)
abbrev cB : GSem nD τ sig := (thr d L, .dma cc0_scratch3.sem)
abbrev cC : GSem nD τ sig := (thr d L, .dma cc0_scoped0.sem)
abbrev cD : GSem nD τ sig := (thr d L, .dma cc0_scoped1.sem)

omit [FloatOps F] in
theorem ownSems0_V :
    (ownSems0 (thr d L) : sProp 𝕄)
      = iprop(semVal (cA d L) 0 ∗ semVal (cB d L) 0 ∗ semVal (cC d L) 0 ∗ semVal (cD d L) 0
          ∗ bigSep (((((ownCells (thr d L)).erase (cA d L)).erase (cB d L)).erase (cC d L)).erase (cD d L)) fun g => semVal g 0) := by
  unfold SparseCore.Cfg.ownSems0
  rw [SparseCore.bigSep_erase' ((mem_ownCells (g := cA d L)).mpr ⟨rfl, by
      show (SemLoc.dma cc0_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc0_scratch3.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped0.sem : SemLoc sig).isScoped .scVector = true; decide⟩⟩⟩),
    SparseCore.bigSep_erase' (Finset.mem_erase.mpr ⟨by simp [cC, cD]; decide, Finset.mem_erase.mpr ⟨by simp [cB, cD]; decide, Finset.mem_erase.mpr ⟨by simp [cA, cD]; decide,
      (mem_ownCells (g := cD d L)).mpr ⟨rfl, by show (SemLoc.dma cc0_scoped1.sem : SemLoc sig).isScoped .scVector = true; decide⟩⟩⟩⟩)]

omit [FloatOps F] in
/-- The subcore's two scratch buffers are among its own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_r (q : PosShare TreeShare) (f : Buf (Elt F) (rLoc d)) :
    ((rW).view.loc (thr d L) ↦{q} f : sProp 𝕄) = rLoc d ↦{q} f := by
  simp only [Memref.view_whole, View.set_whole]
omit [FloatOps F] in
theorem pts_k (q : PosShare TreeShare) (f : Buf (Elt F) (kLoc d)) :
    ((kW).view.loc (thr d L) ↦{q} f : sProp 𝕄) = kLoc d ↦{q} f := by
  simp only [Memref.view_whole, View.set_whole]
omit [FloatOps F] in
theorem pts_m (f : Buf (Elt F) ((thr d L).loc cc0_scratch0)) :
    ((mV).view.loc (thr d L) ↦{fullShare} f : sProp 𝕄) = (thr d L).loc cc0_scratch0 ↦{fullShare} f := by
  simp only [Memref.view_whole, View.set_whole]
omit [FloatOps F] in
theorem pts_w (f : Buf (Elt F) ((thr d L).loc cc0_scratch1)) :
    ((wV).view.loc (thr d L) ↦{fullShare} f : sProp 𝕄) = (thr d L).loc cc0_scratch1 ↦{fullShare} f := by
  simp only [Memref.view_whole, View.set_whole]

local notation "h0M" => (Memref.slice (Memref.whole Cert.KernelIdeal.cc0_scratch0 : Memref Cert.KernelIdeal.sig Kind.scVector Space.vmem Cert.KernelIdeal.S4096 EltTy.i32) (Rect.unit (s := Cert.KernelIdeal.S4096) ![0] Cert.KernelIdeal.S2048.size Cert.KernelIdeal.Facts₀.inb_S4096_S2048_0) (fun _ => rfl))
local notation "h1M" => (Memref.slice (Memref.whole Cert.KernelIdeal.cc0_scratch0 : Memref Cert.KernelIdeal.sig Kind.scVector Space.vmem Cert.KernelIdeal.S4096 EltTy.i32) (Rect.unit (s := Cert.KernelIdeal.S4096) ![2048] Cert.KernelIdeal.S2048.size Cert.KernelIdeal.Facts₀.inb_S4096_S2048_2048) (fun _ => rfl))

omit [FloatOps F] in
theorem mem_h0 (x : S4096.Idx) : x ∈ (h0M).view.set ↔ (x 0).val < 2048 := by
  rw [show (h0M).view.set = (Rect.unit (s := S4096) ![0] S2048.size inb_S4096_S2048_0).set from View.set_slice_whole _ _, Rect.mem_set_unit]
  constructor
  · intro h; have := h 0; simp only [Matrix.cons_val_zero] at this; exact (by omega)
  · intro h a; obtain rfl : a = 0 := Subsingleton.elim _ _
    show 0 ≤ (x 0).val ∧ (x 0).val < 0 + 2048; omega
omit [FloatOps F] in
theorem mem_h1 (x : S4096.Idx) : x ∈ (h1M).view.set ↔ 2048 ≤ (x 0).val := by
  rw [show (h1M).view.set = (Rect.unit (s := S4096) ![2048] S2048.size inb_S4096_S2048_2048).set from View.set_slice_whole _ _, Rect.mem_set_unit]
  have hx : (x 0).val < 4096 := (x 0).isLt
  constructor
  · intro h; have := h 0; simp only [Matrix.cons_val_zero] at this; exact (by omega)
  · intro h a; obtain rfl : a = 0 := Subsingleton.elim _ _
    show 2048 ≤ (x 0).val ∧ (x 0).val < 2048 + 2048; omega
omit [FloatOps F] in
theorem halves : (Finset.univ : Finset S4096.Idx) \ (h0M).view.set = (h1M).view.set := by
  ext x
  rw [Finset.mem_sdiff, mem_h0, mem_h1]
  simp only [Finset.mem_univ, true_and]; omega

omit [FloatOps F] in
/-- The mask scratch whole is its two halves. -/
theorem pts_m_halves (f : Buf (Elt F) ((thr d L).loc cc0_scratch0)) :
    ((thr d L).loc cc0_scratch0 ↦{fullShare} f : sProp 𝕄)
      ⊣⊢ iprop(((h0M).view.loc (thr d L) ↦[(h0M).view.set]{fullShare} f) ∗ ((h1M).view.loc (thr d L) ↦[(h1M).view.set]{fullShare} f)) := by
  have h : ((thr d L).loc cc0_scratch0 ↦{fullShare} f : sProp 𝕄) ⊣⊢ _ :=
    pointsTo_split_subset (ℓ := (thr d L).loc cc0_scratch0) (q := fullShare) (f := f) (Finset.subset_univ ((h0M).view.set))
  rw [halves] at h
  exact h

omit [FloatOps F] in
/-- An element of a view's buffer under the view reads, after one write of the whole view, a word of what was written. -/
theorem writes_whole_apply {sg : RefSig} {κ : Kind} {sp : Space} {s : Shape} {e : EltTy} {Val : EltTy → Type} (v : View sg κ sp s e) (f : v.ty.Contents Val)
    (w : (Rect.whole s).shape.Idx → Val e) {i : v.ty.Idx} (hi : i ∈ v.set) :
    ∃ y, v.writes Val f [⟨Rect.whole s, w⟩] i = _root_.cast (congrArg Val v.elt_eq.symm) (w y) := by
  obtain ⟨x, -, rfl⟩ := Finset.mem_map.mp hi
  refine ⟨x, ?_⟩
  rw [View.writes_singleton]
  have h := View.write_emb_of_mem (v := v.slice (Rect.whole s)) f w (M := Finset.univ) (x := x) (Finset.mem_univ _)
  rwa [View.emb_slice, Function.Embedding.trans_apply, Rect.emb_whole_apply] at h

omit [FloatOps F] in
/-- After one write of the whole view, the element the view places at `x` holds the word written at `x`. -/
theorem writes_whole_emb {sg : RefSig} {κ : Kind} {sp : Space} {s : Shape} {e : EltTy} {Val : EltTy → Type} (v : View sg κ sp s e) (f : v.ty.Contents Val)
    (w : (Rect.whole s).shape.Idx → Val e) (x : s.Idx) :
    v.writes Val f [⟨Rect.whole s, w⟩] (v.emb x) = _root_.cast (congrArg Val v.elt_eq.symm) (w x) := by
  rw [View.writes_singleton]
  have h := View.write_emb_of_mem (v := v.slice (Rect.whole s)) f w (M := Finset.univ) (x := x) (Finset.mem_univ _)
  rwa [View.emb_slice, Function.Embedding.trans_apply, Rect.emb_whole_apply] at h

omit [FloatOps F] in
/-- An index `y` of `[a]` matched with shape `[1, a]` is `(0, y)`. -/
theorem reshapeEquiv_ix1_1a {a : ℕ} (h : (⟨1, ![a]⟩ : Shape).numel = (⟨2, ![1, a]⟩ : Shape).numel) (y : Fin a) :
    Shape.reshapeEquiv h (ix1 y) = ix2 (⟨0, Nat.one_pos⟩ : Fin 1) y :=
  Shape.reshapeEquiv_eq_of_rowMajor h (by
    rw [Shape.rowMajor_val_two, Shape.rowMajor_val_one]
    show 0 * a + y.val = y.val
    simp only [Nat.zero_mul, Nat.zero_add])

omit [FloatOps F] in
/-- Where a one-row slice of a matrix, read as a vector, places the vector's index `y`: row `off 0`, column `off 1 + y`. -/
theorem unit_row_emb {R C : ℕ} (off : Fin 2 → ℕ) (inb : ∀ a, off a + (![1, 1024] : Fin 2 → ℕ) a ≤ (⟨2, ![R, C]⟩ : Shape).size a)
    (h : (⟨1, ![1024]⟩ : Shape).numel = (⟨2, ![1, 1024]⟩ : Shape).numel) (y : (⟨1, ![1024]⟩ : Shape).Idx) :
    ((Rect.unit (s := ⟨2, ![R, C]⟩) off ![1, 1024] inb).emb (Shape.reshapeEquiv h y) 0).val = off 0 ∧
    ((Rect.unit (s := ⟨2, ![R, C]⟩) off ![1, 1024] inb).emb (Shape.reshapeEquiv h y) 1).val = off 1 + (y 0).val := by
  obtain ⟨y0, rfl⟩ : ∃ y0 : Fin 1024, y = ix1 y0 := ⟨y 0, eq_ix1 y⟩
  rw [reshapeEquiv_ix1_1a h y0]
  constructor
  · rw [Rect.emb_apply]; show off 0 + 1 * 0 = off 0; omega
  · rw [Rect.emb_apply]; show off 1 + 1 * y0.val = off 1 + y0.val; omega

/-- Eight running lane sums, each lane of each at `n`. -/
def lanes (n : Nat) : IVec S16 32 := fun _ => BitVec.ofNat 32 n
abbrev Acc : Type := IVec S16 32 × IVec S16 32 × IVec S16 32 × IVec S16 32 × IVec S16 32 × IVec S16 32 × IVec S16 32 × IVec S16 32
def lanes8 (n : Nat) : Acc := (lanes n, lanes n, lanes n, lanes n, lanes n, lanes n, lanes n, lanes n)

/-- Before trip `k` of a summing loop over a half `M` of the mask scratch that holds ones: every lane of every
    running sum is `base + k`. -/
def sumInv (M : Memref sig .scVector .vmem S2048 .i32) (fa : Buf (Elt F) (M.view.loc (thr d L))) (base : Nat) (k : Nat) (acc : Acc) : sProp 𝕄 :=
  iprop(⌜acc = lanes8 (base + k)⌝ ∗ (M.view.loc (thr d L) ↦[M.view.set]{fullShare} fa))

omit [FloatOps F] in
/-- Every 16-word load of the first summing loop lies in the first half of the mask scratch, -/
theorem load_sub0 (k : Fin k0_t1_loop.trips) (r : Fin 8) :
    (mV).view.setOn (Rect.unit (s := S4096) (k0_off3 k (BitVec.ofNat 32 (16 * r.val))) S16.size (k0_off3_inb k r)).set ⊆ (h0M).view.set := by
  intro i hi
  obtain ⟨x, hx, rfl⟩ := Finset.mem_map.mp hi
  rw [Rect.mem_set_unit] at hx
  have hx0 := hx 0
  rw [k0_off3_eq k r] at hx0
  simp only [Matrix.cons_val_zero] at hx0
  have hk : k.val < 16 := lt_of_lt_of_le k.isLt k0_t1_abs.2.1
  have hr := r.isLt
  show (View.whole (cc0_scratch0 : Ref sig .scVector)).emb x ∈ (h0M).view.set
  rw [View.emb_whole, mem_h0]
  show (x 0).val < 2048
  omega
omit [FloatOps F] in
/-- and every one of the second loop in the second half. -/
theorem load_sub1 (k : Fin k0_t2_loop.trips) (r : Fin 8) :
    (mV).view.setOn (Rect.unit (s := S4096) (k0_off4 k (BitVec.ofNat 32 (16 * r.val))) S16.size (k0_off4_inb k r)).set ⊆ (h1M).view.set := by
  intro i hi
  obtain ⟨x, hx, rfl⟩ := Finset.mem_map.mp hi
  rw [Rect.mem_set_unit] at hx
  have hx0 := hx 0
  rw [k0_off4_eq k r] at hx0
  simp only [Matrix.cons_val_zero] at hx0
  show (View.whole (cc0_scratch0 : Ref sig .scVector)).emb x ∈ (h1M).view.set
  rw [View.emb_whole, mem_h1]
  show 2048 ≤ (x 0).val
  omega

omit [FloatOps F] in
/-- A running sum at `n` in every lane, one more in every lane after a vector of ones is added. -/
theorem add_ones (n : Nat) (h : S16.ShapeCasts S16) :
    addi (lanes n) (shapeCast S16 (fun _ : S16.Idx => (1#32 : BitVec 32)) h) = lanes (n + 1) := by
  funext i
  rw [shapeCast_self]
  show BitVec.ofNat 32 n + BitVec.ofNat 32 1 = BitVec.ofNat 32 (n + 1)
  exact (BitVec.ofNat_add n 1).symm

theorem pay9_ones (n : Nat) : k0_pay9 (F := F) (lanes n) (fun _ => (1#32 : BitVec 32)) = lanes (n + 1) := add_ones n _
theorem pay10_ones (n : Nat) : k0_pay10 (F := F) (lanes n) (fun _ => (1#32 : BitVec 32)) = lanes (n + 1) := add_ones n _
theorem pay11_ones (n : Nat) : k0_pay11 (F := F) (lanes n) (fun _ => (1#32 : BitVec 32)) = lanes (n + 1) := add_ones n _
theorem pay12_ones (n : Nat) : k0_pay12 (F := F) (lanes n) (fun _ => (1#32 : BitVec 32)) = lanes (n + 1) := add_ones n _
theorem pay13_ones (n : Nat) : k0_pay13 (F := F) (lanes n) (fun _ => (1#32 : BitVec 32)) = lanes (n + 1) := add_ones n _
theorem pay14_ones (n : Nat) : k0_pay14 (F := F) (lanes n) (fun _ => (1#32 : BitVec 32)) = lanes (n + 1) := add_ones n _
theorem pay15_ones (n : Nat) : k0_pay15 (F := F) (lanes n) (fun _ => (1#32 : BitVec 32)) = lanes (n + 1) := add_ones n _
theorem pay16_ones (n : Nat) : k0_pay16 (F := F) (lanes n) (fun _ => (1#32 : BitVec 32)) = lanes (n + 1) := add_ones n _
theorem pay17_ones (n : Nat) : k0_pay17 (F := F) (lanes n) (fun _ => (1#32 : BitVec 32)) = lanes (n + 1) := add_ones n _
theorem pay18_ones (n : Nat) : k0_pay18 (F := F) (lanes n) (fun _ => (1#32 : BitVec 32)) = lanes (n + 1) := add_ones n _
theorem pay19_ones (n : Nat) : k0_pay19 (F := F) (lanes n) (fun _ => (1#32 : BitVec 32)) = lanes (n + 1) := add_ones n _
theorem pay20_ones (n : Nat) : k0_pay20 (F := F) (lanes n) (fun _ => (1#32 : BitVec 32)) = lanes (n + 1) := add_ones n _
theorem pay21_ones (n : Nat) : k0_pay21 (F := F) (lanes n) (fun _ => (1#32 : BitVec 32)) = lanes (n + 1) := add_ones n _
theorem pay22_ones (n : Nat) : k0_pay22 (F := F) (lanes n) (fun _ => (1#32 : BitVec 32)) = lanes (n + 1) := add_ones n _
theorem pay23_ones (n : Nat) : k0_pay23 (F := F) (lanes n) (fun _ => (1#32 : BitVec 32)) = lanes (n + 1) := add_ones n _
theorem pay24_ones (n : Nat) : k0_pay24 (F := F) (lanes n) (fun _ => (1#32 : BitVec 32)) = lanes (n + 1) := add_ones n _

/-- A load from the mask scratch, through a rectangle inside a part of it that holds ones, reads ones. -/
theorem load_ones (fa : Buf (Elt F) ((thr d L).loc cc0_scratch0)) (S : Finset S4096.Idx) (hfa : ∀ i ∈ S, fa i = (1#32 : BitVec 32))
    (r : LoadRect S4096) (hr : (mV).view.setOn r.set ⊆ S) :
    (mV).view.readAt (Elt F) r fa = fun _ => (1#32 : BitVec 32) := by
  funext x
  rw [View.readAt_apply, View.read_apply]
  have hm : (mV).view.emb (r.idx x) ∈ (mV).view.setOn r.set := (View.mem_setOn _).mpr (r.idx_mem x)
  rw [hfa _ (hr hm)]
  exact cast_eq _ _

theorem k0_t1_body_run (fa : Buf (Elt F) ((h0M).view.loc (thr d L))) (hfa : ∀ i ∈ (h0M).view.set, fa i = (1#32 : BitVec 32))
    (k : Fin k0_t1_loop.trips) (acc : Acc) :
    sumInv (F := F) d L h0M fa 0 k.val acc
      ⊢ wp frame (wpE (defs₀ (F := F)) 𝒱₀ (thr d L) none) Set.univ
          (k0_t1_body L rW (Memref.isWhole_whole _) kW (Memref.isWhole_whole _) oW (Memref.isWhole_whole _)
            mV (Memref.isWhole_whole _) wV (Memref.isWhole_whole _) cc0_scratch2 cc0_scratch3 cc0_scoped0 cc0_scoped1 k acc)
          (sumInv (F := F) d L h0M fa 0 (k.val + 1)) := by
  unfold sumInv
  iintro ⟨%hacc, Hm⟩
  subst hacc
  unfold k0_t1_body lanes8
  have hl0 := load_sub0 k 0
  have hl1 := load_sub0 k 1
  have hl2 := load_sub0 k 2
  have hl3 := load_sub0 k 3
  have hl4 := load_sub0 k 4
  have hl5 := load_sub0 k 5
  have hl6 := load_sub0 k 6
  have hl7 := load_sub0 k 7
  sl_exec
  rw [wp_ret]; imodintro
  isplitr
  · ipureintro
    exact Prod.ext ((congrArg (k0_pay9 (F := F) (lanes _)) (load_ones (F := F) d L fa _ hfa _ hl0)).trans (pay9_ones _))
      (Prod.ext ((congrArg (k0_pay10 (F := F) (lanes _)) (load_ones (F := F) d L fa _ hfa _ hl1)).trans (pay10_ones _))
      (Prod.ext ((congrArg (k0_pay11 (F := F) (lanes _)) (load_ones (F := F) d L fa _ hfa _ hl2)).trans (pay11_ones _))
      (Prod.ext ((congrArg (k0_pay12 (F := F) (lanes _)) (load_ones (F := F) d L fa _ hfa _ hl3)).trans (pay12_ones _))
      (Prod.ext ((congrArg (k0_pay13 (F := F) (lanes _)) (load_ones (F := F) d L fa _ hfa _ hl4)).trans (pay13_ones _))
      (Prod.ext ((congrArg (k0_pay14 (F := F) (lanes _)) (load_ones (F := F) d L fa _ hfa _ hl5)).trans (pay14_ones _))
      (Prod.ext ((congrArg (k0_pay15 (F := F) (lanes _)) (load_ones (F := F) d L fa _ hfa _ hl6)).trans (pay15_ones _))
        ((congrArg (k0_pay16 (F := F) (lanes _)) (load_ones (F := F) d L fa _ hfa _ hl7)).trans (pay16_ones _))))))))
  · iexact Hm

theorem k0_t2_body_run (fa : Buf (Elt F) ((h1M).view.loc (thr d L))) (hfa : ∀ i ∈ (h1M).view.set, fa i = (1#32 : BitVec 32))
    (k : Fin k0_t2_loop.trips) (acc : Acc) :
    sumInv (F := F) d L h1M fa 16 k.val acc
      ⊢ wp frame (wpE (defs₀ (F := F)) 𝒱₀ (thr d L) none) Set.univ
          (k0_t2_body L rW (Memref.isWhole_whole _) kW (Memref.isWhole_whole _) oW (Memref.isWhole_whole _)
            mV (Memref.isWhole_whole _) wV (Memref.isWhole_whole _) cc0_scratch2 cc0_scratch3 cc0_scoped0 cc0_scoped1 k acc)
          (sumInv (F := F) d L h1M fa 16 (k.val + 1)) := by
  unfold sumInv
  iintro ⟨%hacc, Hm⟩
  subst hacc
  unfold k0_t2_body lanes8
  have hl0 := load_sub1 k 0
  have hl1 := load_sub1 k 1
  have hl2 := load_sub1 k 2
  have hl3 := load_sub1 k 3
  have hl4 := load_sub1 k 4
  have hl5 := load_sub1 k 5
  have hl6 := load_sub1 k 6
  have hl7 := load_sub1 k 7
  sl_exec
  rw [wp_ret]; imodintro
  isplitr
  · ipureintro
    exact Prod.ext ((congrArg (k0_pay17 (F := F) (lanes _)) (load_ones (F := F) d L fa _ hfa _ hl0)).trans (pay17_ones _))
      (Prod.ext ((congrArg (k0_pay18 (F := F) (lanes _)) (load_ones (F := F) d L fa _ hfa _ hl1)).trans (pay18_ones _))
      (Prod.ext ((congrArg (k0_pay19 (F := F) (lanes _)) (load_ones (F := F) d L fa _ hfa _ hl2)).trans (pay19_ones _))
      (Prod.ext ((congrArg (k0_pay20 (F := F) (lanes _)) (load_ones (F := F) d L fa _ hfa _ hl3)).trans (pay20_ones _))
      (Prod.ext ((congrArg (k0_pay21 (F := F) (lanes _)) (load_ones (F := F) d L fa _ hfa _ hl4)).trans (pay21_ones _))
      (Prod.ext ((congrArg (k0_pay22 (F := F) (lanes _)) (load_ones (F := F) d L fa _ hfa _ hl5)).trans (pay22_ones _))
      (Prod.ext ((congrArg (k0_pay23 (F := F) (lanes _)) (load_ones (F := F) d L fa _ hfa _ hl6)).trans (pay23_ones _))
        ((congrArg (k0_pay24 (F := F) (lanes _)) (load_ones (F := F) d L fa _ hfa _ hl7)).trans (pay24_ones _))))))))
  · iexact Hm

local notation "oSl(" L ")" => (Memref.squeeze (Memref.slice (Memref.whole Cert.KernelIdeal.main_v1_scv : Memref Cert.KernelIdeal.sig Kind.scVector Space.hbm Cert.KernelIdeal.S4x4096 EltTy.f32) (Rect.unit (s := Cert.KernelIdeal.S4x4096) (Cert.KernelIdeal.k0_off6 L) Cert.KernelIdeal.S1x1024.size (Cert.KernelIdeal.Gen.k0_off6_inb L)) (fun _ => rfl)) Cert.KernelIdeal.S1024 Cert.KernelIdeal.Gen.squeezes_S1x1024_S1024)

omit [FloatOps F] in
/-- The result rectangle a subcore slices is its tile: row `j / 4`, columns from `1024 (j % 4)`. -/
theorem k0_off6_eq : ∀ L : grid0.Coords, k0_off6 L = tileOff (jL L) := by decide +kernel

omit [FloatOps F] in
theorem unit_congr {s : Shape} {o o' : Fin s.rank → Nat} (h : o = o') (sz : Fin s.rank → Nat) (i : ∀ a, o a + sz a ≤ s.size a) (i' : ∀ a, o' a + sz a ≤ s.size a) :
    Rect.unit (s := s) o sz i = Rect.unit (s := s) o' sz i' := by subst h; rfl

omit [FloatOps F] in
theorem set_oSl : (oSl(L)).view.set = tileSet (jL L) := by
  show (((View.whole (main_v1_scv : Ref sig .scVector)).slice (Rect.unit (s := S4x4096) (k0_off6 L) S1x1024.size (k0_off6_inb L))).reshape S1024 squeezes_S1x1024_S1024.numel_eq).set
    = (tileRect (jL L)).set
  rw [View.set_reshape, View.set_slice_whole]
  exact congrArg (fun r : Rect S4x4096 => r.set) (unit_congr (s := S4x4096) (k0_off6_eq L) _ _ _)

omit [FloatOps F] in
theorem pts_o (f : Buf (Elt F) (oLoc d)) :
    ((oSl(L)).view.loc (thr d L) ↦[(oSl(L)).view.set]{fullShare} f : sProp 𝕄) = oLoc d ↦[tileSet (jL L)]{fullShare} f := by
  rw [set_oSl]

omit [FloatOps F] in
/-- Where every lane of the total is `256` the row copied, `4096 b + 4095`, and its quarter lie inside the matrix of rows. -/
theorem chk_256 : ∀ L : grid0.Coords, k0_chk1 L 256#32 256#32 256#32 256#32 256#32 256#32 256#32 256#32 256#32 256#32 256#32 256#32 256#32 256#32 256#32 256#32 := by
  decide +kernel

omit [FloatOps F] in
/-- Where every lane of the total is `256` the row a subcore copies is the last token's of its batch row, at its quarter. -/
theorem k0_off5_256 : ∀ L : grid0.Coords,
    k0_off5 L 256#32 256#32 256#32 256#32 256#32 256#32 256#32 256#32 256#32 256#32 256#32 256#32 256#32 256#32 256#32 256#32
      = ![(jL L).val / 4 * 4096 + 4095, (jL L).val % 4 * 1024] := by
  decide +kernel

omit [FloatOps F] in
/-- The word a subcore's row copy reads for position `y` of its piece is the last token's row at the piece's column. -/
theorem row_emb_eq (off5 : Fin 2 → ℕ) (h5 : off5 = ![(jL L).val / 4 * 4096 + 4095, (jL L).val % 4 * 1024])
    (inb5 : ∀ a, off5 a + S1x1024.size a ≤ S16384x4096.size a) (y : S1024.Idx) :
    (Memref.squeeze (Memref.slice rW (Rect.unit (s := S16384x4096) off5 S1x1024.size inb5) (fun _ => rfl)) S1024 squeezes_S1x1024_S1024).view.emb y
      = lastRow ((oSl(L)).view.emb y) := by
  subst h5
  have h5' := unit_row_emb (R := 16384) (C := 4096) _ inb5 squeezes_S1x1024_S1024.numel_eq y
  have h6' := unit_row_emb (R := 4) (C := 4096) (k0_off6 L) (k0_off6_inb L) squeezes_S1x1024_S1024.numel_eq y
  have e6 := k0_off6_eq L
  funext a
  apply Fin.ext
  match a with
  | ⟨0, _⟩ =>
    show ((Rect.unit (s := S16384x4096) _ S1x1024.size inb5).emb (Shape.reshapeEquiv squeezes_S1x1024_S1024.numel_eq y) 0).val
      = ((Rect.unit (s := S4x4096) (k0_off6 L) S1x1024.size (k0_off6_inb L)).emb (Shape.reshapeEquiv squeezes_S1x1024_S1024.numel_eq y) 0).val * 4096 + 4095
    rw [h5'.1, h6'.1, e6]; rfl
  | ⟨1, _⟩ =>
    show ((Rect.unit (s := S16384x4096) _ S1x1024.size inb5).emb (Shape.reshapeEquiv squeezes_S1x1024_S1024.numel_eq y) 1).val
      = ((Rect.unit (s := S4x4096) (k0_off6 L) S1x1024.size (k0_off6_inb L)).emb (Shape.reshapeEquiv squeezes_S1x1024_S1024.numel_eq y) 1).val
    rw [h5'.2, h6'.2, e6]; rfl

omit [FloatOps F] in
theorem trips1 : Scf.trips k0_t1_loop.lb k0_t1_loop.ub k0_t1_loop.st = 16 := by decide
omit [FloatOps F] in
theorem trips2 : Scf.trips k0_t2_loop.lb k0_t2_loop.ub k0_t2_loop.st = 16 := by decide

/-- The whole task. -/
theorem tile_body (hF : (K (F := F)).Facts) (r0 : Buf (Elt F) (rLoc d)) (km : Buf (Elt F) (kLoc d)) (fo : Buf (Elt F) (oLoc d))
    (hk : ∀ x, km x = 1#32) (qs : PosShare TreeShare)
    (O : CellTallies nD τ sig (HIx 1)) (W : Waits sig (HIx 1)) (hO : ∀ g, O g none = 0) :
    (iprop(levAts (K (F := F)).L (K (F := F)).lev ∗ emp
        ∗ ((rLoc d ↦{qs} r0) ∗ (kLoc d ↦{qs} km) ∗ oLoc d ↦[tileSet (jL L)]{fullShare} fo)
        ∗ scopedBufs (thr d L) ∗ scopedSems0 (thr d L) ∗ owes (thr d L) O W) : sProp 𝕄)
      ⊢ wp frame (wpE (defs₀ (F := F)) 𝒱₀ (thr d L) none) Set.univ
          (cc0_body L rW (Memref.isWhole_whole _) kW (Memref.isWhole_whole _) oW (Memref.isWhole_whole _)
            mV (Memref.isWhole_whole _) wV (Memref.isWhole_whole _) cc0_scratch2 cc0_scratch3 cc0_scoped0 cc0_scoped1)
          fun _ => iprop(((rLoc d ↦{qs} r0) ∗ (kLoc d ↦{qs} km) ∗ oLoc d ↦[tileSet (jL L)]{fullShare} result (F := F) r0)
            ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  simp only [k0_part1_eq_skeleton, k0_part2_eq_skeleton, k0_part3_eq_skeleton]; unfold k0_part1_skel k0_part2_skel k0_part3_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨Hr, Hk, Ho⟩, ⟨⟨%fm, Hm⟩, ⟨%fw, Hw⟩, Hbufs⟩, ⟨HsA, HsB, HsC, HsD, Hsems⟩, HO⟩
  ihave Hmw := ((K (F := F)).mayWaits_none (thr := thr d L) hO) $$ Hlv
  ihave Hr' := (Entails.of_eq (pts_r (F := F) d L _ _).symm) $$ Hr
  ihave Hk' := (Entails.of_eq (pts_k (F := F) d L _ _).symm) $$ Hk
  ihave Hm' := (pts_m_halves (F := F) d L _).1 $$ Hm
  icases Hm' with ⟨Hm0, Hm1⟩
  ihave Hw' := (Entails.of_eq (pts_w (F := F) d L _).symm) $$ Hw
  sl_exec
  -- the first half of the mask row has landed: it holds ones
  ihave Hm0 := (Entails.of_eq (pointsTo_congr (g := fun _ => (1#32 : BitVec 32)) ?h0)) $$ Hm0
  case h0 =>
    intro i hi
    obtain ⟨y, hy⟩ := writes_whole_apply _ _ _ hi
    rw [hy]
    unfold tile_body.sl.dma0
    refine (cast_eq _ _).trans ((View.read_apply _ _).trans ?_)
    rw [hk]
    exact cast_eq _ _
  sl_for (sumInv (F := F) d L h0M (fun _ => (1#32 : BitVec 32)) 0) $$ [Hm0]
  case region => exact k0_t1_body_run (F := F) d L _ (fun _ _ => rfl)
  · unfold sumInv
    isplitr
    · ipureintro; rfl
    · iexact Hm0
  iintro %acc HI
  unfold sumInv
  icases HI with ⟨%hacc, Hm0⟩
  subst hacc
  sl_exec
  -- the second half has landed: ones
  ihave Hm1 := (Entails.of_eq (pointsTo_congr (g := fun _ => (1#32 : BitVec 32)) ?h1)) $$ Hm1
  case h1 =>
    intro i hi
    obtain ⟨y, hy⟩ := writes_whole_apply _ _ _ hi
    rw [hy]
    unfold tile_body.sl.dma0_1
    refine (cast_eq _ _).trans ((View.read_apply _ _).trans ?_)
    rw [hk]
    exact cast_eq _ _
  sl_for (sumInv (F := F) d L h1M (fun _ => (1#32 : BitVec 32)) 16) $$ [Hm1]
  case region => exact k0_t2_body_run (F := F) d L _ (fun _ _ => rfl)
  · unfold sumInv
    isplitr
    · ipureintro
      exact (congrArg lanes8 (show 0 + Scf.trips k0_t1_loop.lb k0_t1_loop.ub k0_t1_loop.st = 16 + 0 by rw [trips1]) : _)
    · iexact Hm1
  iintro %acc HI
  unfold sumInv
  icases HI with ⟨%hacc, Hm1⟩
  have hacc' : acc = lanes8 32 := hacc.trans (congrArg lanes8 (show 16 + Scf.trips k0_t2_loop.lb k0_t2_loop.ub k0_t2_loop.st = 32 by rw [trips2]))
  subst hacc'
  sl_exec (disch := exact chk_256 L)
  ihave Ho' := (Entails.of_eq (pts_o (F := F) d L _).symm) $$ Ho
  sl_exec
  rw [wp_ret]; imodintro
  -- what the piece of the result holds: the last token's row at the piece's columns
  ihave Ho' := (Entails.of_eq (pointsTo_congr (g := result (F := F) r0) ?hval)) $$ Ho'
  case hval =>
    intro i hi
    obtain ⟨y, -, rfl⟩ := Finset.mem_map.mp hi
    rw [writes_whole_emb]
    unfold tile_body.sl.dma0_3
    refine (cast_eq _ _).trans ((View.read_apply _ _).trans ((cast_eq _ _).trans ?_))
    rw [View.write_emb_of_mem _ _ (Finset.mem_univ _)]
    unfold tile_body.sl.dma0_2
    refine (cast_eq _ _).trans ((View.read_apply _ _).trans ((cast_eq _ _).trans ?_))
    exact congrArg r0 (row_emb_eq L _ (k0_off5_256 L) _ y)
  ihave Ho := (Entails.of_eq (pts_o (F := F) d L _)) $$ Ho'
  ihave Hr := (Entails.of_eq (pts_r (F := F) d L _ _)) $$ Hr'
  ihave Hk := (Entails.of_eq (pts_k (F := F) d L _ _)) $$ Hk'
  ihave Hm := (pts_m_halves (F := F) d L _).2 $$ [Hm0 Hm1]
  · isplitl [Hm0] <;> iassumption
  ihave Hw := (Entails.of_eq (pts_w (F := F) d L _)) $$ Hw'
  isplitl [Hr Hk Ho]
  · isplitl [Hr]; · iexact Hr
    isplitl [Hk]; · iexact Hk
    iexact Ho
  isplitl [Hm Hw Hbufs]
  · isplitl [Hm]; · iexists _; iexact Hm
    isplitl [Hw]; · iexists _; iexact Hw
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

end Cert.Proof.KI

end
-- ==== Proof.IdealPay.lean ====
/-
  What the one SparseCore call carries: the matrix of rows and the mask whole and read-only, the result whole; to
  each of the sixteen subcores a read share of the matrix and of the mask and its own rectangle of the result; back, the
  same with the rectangle holding the last token's row.
-/
import proofs.«209917_g9457517986232_cont_9to1c4b_207_18_alg».proof.Proof.IdealSetup
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.KernelIdeal.main_v0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S4x4096 EltTy.i32)
local notation "oW" => (Memref.whole Cert.KernelIdeal.main_v1_scv : Memref Cert.KernelIdeal.sig Kind.scVector Space.hbm Cert.KernelIdeal.S4x4096 EltTy.f32)
local notation "mV" => (Memref.whole Cert.KernelIdeal.cc0_scratch0 : Memref Cert.KernelIdeal.sig Kind.scVector Space.vmem Cert.KernelIdeal.S4096 EltTy.i32)
local notation "wV" => (Memref.whole Cert.KernelIdeal.cc0_scratch1 : Memref Cert.KernelIdeal.sig Kind.scVector Space.vmem Cert.KernelIdeal.S1024 EltTy.f32)

variable (m : (ℓ : Loc nD τ sig) → Buf (Elt F) ℓ)

/-- The embeddings as a matrix of `16384` rows: what the host's reshape leaves in its result buffer. -/
def rows (d : Dev nD) : Buf (Elt F) (rLoc d) :=
  shapeCast S16384x4096 (m (eLoc d)) Cert.KernelIdeal.Gen.shapeCasts_S4x4096x4096_S16384x4096

/-- Subcore `j`'s read share of an array every subcore reads. -/
abbrev tok (j : Fin 16) : PosShare TreeShare := Transfers.shareTok fullShare 16 j

def P : (K (F := F)).Pay (nD := nD) (Val := Elt F) (Name := ℕ) (U := UU) where
  st := fun q d _ => match q with
    | 0 => iprop((rLoc d ↦{fullShare} rows m d) ∗ (kLoc d ↦{fullShare} m (kLoc d)) ∗ (oLoc d ↦{fullShare} m (oLoc d)))
  dn := fun q d _ => match q with
    | 0 => iprop((rLoc d ↦{fullShare} rows m d) ∗ (kLoc d ↦{fullShare} m (kLoc d)) ∗ (oLoc d ↦{fullShare} result (F := F) (rows m d)))
  go := fun q d _ i => match q with
    | 0 => iprop((rLoc d ↦{tok (Fin.cast nSub_zero i)} rows m d) ∗ (kLoc d ↦{tok (Fin.cast nSub_zero i)} m (kLoc d))
        ∗ (oLoc d ↦[tileSet (Fin.cast nSub_zero i)]{fullShare} m (oLoc d)))
  td := fun q d _ i => match q with
    | 0 => iprop((rLoc d ↦{tok (Fin.cast nSub_zero i)} rows m d) ∗ (kLoc d ↦{tok (Fin.cast nSub_zero i)} m (kLoc d))
        ∗ (oLoc d ↦[tileSet (Fin.cast nSub_zero i)]{fullShare} result (F := F) (rows m d)))
  x := fun _ _ => iprop(emp)

instance P_storable : (P (F := F) m).IsStorable where
  st q d _ := match q with
    | 0 => (inferInstance : BI.Storable (upEmb : UEmb _ 𝕄)
        iprop((rLoc d ↦{fullShare} rows m d) ∗ (kLoc d ↦{fullShare} m (kLoc d)) ∗ (oLoc d ↦{fullShare} m (oLoc d))))
  dn q d _ := match q with
    | 0 => (inferInstance : BI.Storable (upEmb : UEmb _ 𝕄)
        iprop((rLoc d ↦{fullShare} rows m d) ∗ (kLoc d ↦{fullShare} m (kLoc d)) ∗ (oLoc d ↦{fullShare} result (F := F) (rows m d))))
  go q d _ i := match q with
    | 0 => (inferInstance : BI.Storable (upEmb : UEmb _ 𝕄)
        iprop((rLoc d ↦{tok (Fin.cast nSub_zero i)} rows m d) ∗ (kLoc d ↦{tok (Fin.cast nSub_zero i)} m (kLoc d))
          ∗ (oLoc d ↦[tileSet (Fin.cast nSub_zero i)]{fullShare} m (oLoc d))))
  td q d _ i := match q with
    | 0 => (inferInstance : BI.Storable (upEmb : UEmb _ 𝕄)
        iprop((rLoc d ↦{tok (Fin.cast nSub_zero i)} rows m d) ∗ (kLoc d ↦{tok (Fin.cast nSub_zero i)} m (kLoc d))
          ∗ (oLoc d ↦[tileSet (Fin.cast nSub_zero i)]{fullShare} result (F := F) (rows m d))))

end Cert.Proof.KI

end
-- ==== Proof.IdealObl.lean ====
/-
  The task of `IdealTile` as the launch theorem's obligation for the one SparseCore call: what the call hands subcore
  `i` — read shares of the matrix of rows and of the mask, its rectangle of the result — is what the task needs, and what the
  task leaves — the rectangle at the last token's row — is what the call takes back.
-/
import proofs.«209917_g9457517986232_cont_9to1c4b_207_18_alg».proof.Proof.IdealTile
import proofs.«209917_g9457517986232_cont_9to1c4b_207_18_alg».proof.Proof.IdealPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.KernelIdeal.main_v0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S4x4096 EltTy.i32)
local notation "oW" => (Memref.whole Cert.KernelIdeal.main_v1_scv : Memref Cert.KernelIdeal.sig Kind.scVector Space.hbm Cert.KernelIdeal.S4x4096 EltTy.f32)
local notation "mV" => (Memref.whole Cert.KernelIdeal.cc0_scratch0 : Memref Cert.KernelIdeal.sig Kind.scVector Space.vmem Cert.KernelIdeal.S4096 EltTy.i32)
local notation "wV" => (Memref.whole Cert.KernelIdeal.cc0_scratch1 : Memref Cert.KernelIdeal.sig Kind.scVector Space.vmem Cert.KernelIdeal.S1024 EltTy.f32)

variable (m : (ℓ : Loc nD τ sig) → Buf (Elt F) ℓ) [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          rW (Memref.isWhole_whole _) kW (Memref.isWhole_whole _) oW (Memref.isWhole_whole _)
          mV (Memref.isWhole_whole _) wV (Memref.isWhole_whole _) cc0_scratch2 cc0_scratch3 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Where the mask holds ones, every subcore's task meets the call's obligation. -/
theorem tileObl (hF : (K (F := F)).Facts) (hones : ∀ (d : Dev nD) x, m (kLoc d) x = (1#32 : BitVec 32)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) hF (rows m d) (m (kLoc d)) (m (oLoc d)) (hones d) _ O W hO).trans
    (wp_mono frame _ _ fun _ => obl_post)

end Cert.Proof.KI

end
-- ==== Proof.IdealLaunch.lean ====
/-
  The launch side of the idealized kernel's certificate: how the one SparseCore call's operands are dealt to the
  sixteen vector subcores and gathered back, the launch element of the ghost state, @main on the TensorCore (the host's
  reshape of the embeddings into a matrix of rows, then the call), what @main leaves read off the final memory, and the
  program's run from each subcore's task taken as proved.
-/
import proofs.«209917_g9457517986232_cont_9to1c4b_207_18_alg».proof.Proof.IdealPay
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg) [FloatOps F]

/-! ## The one call's operands dealt to the sixteen tasks, and gathered back -/

omit [FloatOps F] in
/-- A family over the sixteen tasks, indexed by the configuration's task count, is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The result whole is its sixteen rectangles: they are pairwise disjoint and cover it. -/
theorem oPts_tiles (d : Dev nD) (f : Buf (Elt F) (oLoc d)) :
    (oLoc d ↦{fullShare} f : sProp 𝕄) = bigSep Finset.univ fun i : Fin 16 => oLoc d ↦[tileSet i]{fullShare} f := by
  rw [← pointsTo_biUnion Finset.univ (ℓ := oLoc d) tileSet tiles_disjoint, tiles_cover]; try rfl

omit [FloatOps F] in
/-- The matrix of rows and the mask go out as sixteen read shares (the remainders stay behind and are joined with the
    shares when they come back); the result goes out as its sixteen rectangles and comes back as the same rectangles
    of the one function `result (rows m d)`. -/
theorem vecSplit : (K (F := F)).VecSplit' (P m) 0 := by
  intro d c
  show iprop((rLoc d ↦{fullShare} rows m d) ∗ (kLoc d ↦{fullShare} m (kLoc d)) ∗ (oLoc d ↦{fullShare} m (oLoc d)))
    ⊢ |={Set.univ}=> iprop(
      (bigSep Finset.univ fun i : Fin ((K (F := F)).nSub 0) =>
        iprop((rLoc d ↦{tok (Fin.cast nSub_zero i)} rows m d) ∗ (kLoc d ↦{tok (Fin.cast nSub_zero i)} m (kLoc d)) ∗ (oLoc d ↦[tileSet (Fin.cast nSub_zero i)]{fullShare} m (oLoc d))))
      ∗ ((bigSep Finset.univ fun i : Fin ((K (F := F)).nSub 0) =>
          iprop((rLoc d ↦{tok (Fin.cast nSub_zero i)} rows m d) ∗ (kLoc d ↦{tok (Fin.cast nSub_zero i)} m (kLoc d)) ∗ (oLoc d ↦[tileSet (Fin.cast nSub_zero i)]{fullShare} result (F := F) (rows m d))))
          -∗ iprop((rLoc d ↦{fullShare} rows m d) ∗ (kLoc d ↦{fullShare} m (kLoc d)) ∗ (oLoc d ↦{fullShare} result (F := F) (rows m d)))))
  rw [bigSep_tasks (F := F) (fun i => iprop((rLoc d ↦{tok i} rows m d) ∗ (kLoc d ↦{tok i} m (kLoc d)) ∗ (oLoc d ↦[tileSet i]{fullShare} m (oLoc d)))),
    bigSep_tasks (F := F) (fun i => iprop((rLoc d ↦{tok i} rows m d) ∗ (kLoc d ↦{tok i} m (kLoc d)) ∗ (oLoc d ↦[tileSet i]{fullShare} result (F := F) (rows m d)))),
    bigSep_sep', bigSep_sep', bigSep_sep', bigSep_sep', oPts_tiles, oPts_tiles]
  iintro ⟨Hr, Hk, Ho⟩
  ihave Hr' := (Transfers.pointsTo_toks_split fullShare 16) $$ Hr
  icases Hr' with ⟨Hrd, Hrt⟩
  ihave Hk' := (Transfers.pointsTo_toks_split fullShare 16) $$ Hk
  icases Hk' with ⟨Hkd, Hkt⟩
  imodintro
  isplitl [Hrt Hkt Ho]
  · isplitl [Hrt]; · iexact Hrt
    isplitl [Hkt]; · iexact Hkt
    iexact Ho
  iintro ⟨Hrt, Hkt, Ho⟩
  isplitl [Hrd Hrt]
  · iapply (Transfers.pointsTo_toks_join fullShare 16)
    isplitl [Hrd]; · iexact Hrd
    iexact Hrt
  isplitl [Hkd Hkt]
  · iapply (Transfers.pointsTo_toks_join fullShare 16)
    isplitl [Hkd]; · iexact Hkd
    iexact Hkt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, read off the final memory -/

/-- What @main leaves the claim: the embeddings and the mask at their launch contents, the result at `result (rows m d)`. -/
abbrev FIN (d : Dev nD) : sProp 𝕄 :=
  iprop((eLoc d ↦{fullShare} m (eLoc d)) ∗ (kLoc d ↦{fullShare} m (kLoc d)) ∗ (oLoc d ↦{fullShare} result (F := F) (rows m d)))

def fq (d : Dev nD) (s' : Phys nD τ sig (Elt F)) : Prop :=
  s'.mem.mem (eLoc d) = m (eLoc d) ∧ s'.mem.mem (kLoc d) = m (kLoc d) ∧ s'.mem.mem (oLoc d) = result (rows m d)

omit [FloatOps F] in
theorem hfin (d : Dev nD) (s' : Phys nD τ sig (Elt F)) : iprop(FIN m d ∗ SI s') ⊢ (⌜fq m d s'⌝ : sProp 𝕄) := by
  iintro ⟨⟨He, Hk, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := oLoc d) (I := Finset.univ) (q := fullShare) (f := result (F := F) (rows m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## @main on the TensorCore -/

abbrev eR : DevRef τ sig := Proc.devRef .tc (main_arg0 : Ref sig .tc)
abbrev kR : DevRef τ sig := Proc.devRef .tc (main_arg1 : Ref sig .tc)
abbrev rR : DevRef τ sig := Proc.devRef .tc (main_v0 : Ref sig .tc)
abbrev oR : DevRef τ sig := Proc.devRef .tc (main_v1 : Ref sig .tc)
/-- The host's reshape of the embeddings into the matrix of rows. -/
abbrev opR : HloOp τ sig (Elt F) := StableHlo.reshape main_arg0 main_v0 rfl shapeCasts_S4x4096x4096_S16384x4096

/-- The TensorCore's arrays, all unscoped: the embeddings, the mask, the matrix of rows, the result. -/
abbrev B4 : Finset (DevRef τ sig) := {eR, kR, rR, oR}

omit [FloatOps F] in
theorem held_B4 (d : Dev nD) (W : Valuation τ sig (Elt F)) :
    (held (T d) B4 W : sProp 𝕄) = iprop((eLoc d ↦{fullShare} W eR) ∗ (kLoc d ↦{fullShare} W kR) ∗ (rLoc d ↦{fullShare} W rR)
      ∗ oLoc d ↦{fullShare} W oR) := by
  unfold held B4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (kLoc d ↦{fullShare} W main_arg1)
      ∗ (rLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) B4 (V0 m d) := by
  rw [unscopedBufs_eq, held_B4]; rfl

omit [FloatOps F] in
theorem hR : (opR (F := F)).bufs ⊆ B4 := show ({eR, rR} : Finset (DevRef τ sig)) ⊆ B4 by decide

omit [FloatOps F] in
/-- After the reshape the matrix's buffer holds the embeddings' elements in row-major order at the matrix's shape. -/
theorem reshape_rows (d : Dev nD) : (opR (F := F)).result (V0 m d) rR = rows m d :=
  (StableHlo.reshape_result main_arg0 main_v0 rfl shapeCasts_S4x4096x4096_S16384x4096 ⟨by decide, rfl⟩ ⟨by decide, rfl⟩ (V0 m d)).trans rfl

omit [FloatOps F] in
/-- The four arrays after the reshape: the matrix of rows written, the others as launched. -/
theorem held_after (d : Dev nD) :
    (held (T d) B4 ((opR (F := F)).result (V0 m d)) : sProp 𝕄)
      = iprop((eLoc d ↦{fullShare} m (eLoc d)) ∗ (kLoc d ↦{fullShare} m (kLoc d)) ∗ (rLoc d ↦{fullShare} rows m d)
        ∗ oLoc d ↦{fullShare} m (oLoc d)) := by
  rw [held_B4, (opR (F := F)).result_of_not_mem (V0 m d) (b := eR) (show eR ∉ ({rR} : Finset (DevRef τ sig)) by decide),
    (opR (F := F)).result_of_not_mem (V0 m d) (b := kR) (show kR ∉ ({rR} : Finset (DevRef τ sig)) by decide),
    (opR (F := F)).result_of_not_mem (V0 m d) (b := oR) (show oR ∉ ({rR} : Finset (DevRef τ sig)) by decide),
    reshape_rows]
  rfl

omit [FloatOps F] in
theorem st0_eq (d : Dev nD) : (bigSep Finset.univ fun c : Fin ((K (F := F)).nCore 0) => (P m).st 0 d c)
    = iprop((rLoc d ↦{fullShare} rows m d) ∗ (kLoc d ↦{fullShare} m (kLoc d)) ∗ (oLoc d ↦{fullShare} m (oLoc d))) :=
  bigSep_univ_of_subsingleton (0 : Fin 1)
omit [FloatOps F] in
theorem dn0_eq (d : Dev nD) : (bigSep Finset.univ fun c : Fin ((K (F := F)).nCore 0) => (P m).dn 0 d c)
    = iprop((rLoc d ↦{fullShare} rows m d) ∗ (kLoc d ↦{fullShare} m (kLoc d)) ∗ (oLoc d ↦{fullShare} result (F := F) (rows m d))) :=
  bigSep_univ_of_subsingleton (0 : Fin 1)

/-- @main on device `d`'s TensorCore: the reshape (over the four arrays held whole), then the one call, which takes the
    matrix of rows, the mask and the result and hands them back with the result written; the embeddings kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := B4) hR (V := V0 m d)) $$ [Hb Hheld]
  · isplitl [Hb]; · iexact Hb
    iexact Hheld
  iintro ⟨Hb, Hheld⟩
  ihave Hh := (Entails.of_eq (held_after (F := F) m d)) $$ Hheld
  icases Hh with ⟨He, Hk, Hr, Ho⟩
  rw [wp_ret]; imodintro
  iapply ((K (F := F)).wp_run (D (F := F)) 𝒱 (EH := EH) (P := P m) κ d 0) $$ [Hst He Hk Hr Ho]
  isplitr; · iexact Hctx
  isplitl [Hst]; · iexact Hst
  isplitl [Hk Hr Ho]
  · rw [st0_eq]
    isplitl [Hr]; · iexact Hr
    isplitl [Hk]; · iexact Hk
    iexact Ho
  iintro ⟨Hst, Hdn⟩
  ihave Hdn' := (Entails.of_eq (dn0_eq m d)) $$ Hdn
  icases Hdn' with ⟨-, Hk, Ho⟩
  imodintro
  isplitl [Hst]; · iexact Hst
  isplitl [He]; · iexact He
  isplitl [Hk]; · iexact Hk
  iexact Ho

/-! ## The program's run -/

def QC : PUnit × MemSt nD τ sig (Elt F) → Prop := fun r => ∀ c : Dev nD,
  r.2.mem (eLoc c) = m (eLoc c) ∧ r.2.mem (kLoc c) = m (kLoc c) ∧ r.2.mem (oLoc c) = result (rows m c)

/-- Given each vector subcore's task proved, every weakly fair execution of the program terminates with the embeddings
    and the mask unchanged and the result at `result (rows m c)` on every device. -/
theorem run_main [∀ e, Nonempty (Elt F e)] (tObl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tObl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.WordSetup.lean ====
/-
  The kernel as printed, read at any float instance, as the SparseCore launch theorem sees it, and the mathematics of its data movement.

  Sixteen vector subcores run the body, subcore `j` for batch row `b = j / 4` and quarter `q = j % 4`. Each one
  sums the 4096 words of row `b` of the mask (two half-row copies into its own memory, eight running lane sums
  over each half, the sums added up to one word `total`), then copies the 1024 words at columns `[1024 q, 1024 q + 1024)`
  of row `4096 b + total - 1` of the embeddings — read as a `16384 x 4096` matrix — into its own memory and from there
  into the same columns of row `b` of the result.  Where every mask word is one, `total = 4096` and the row copied is
  `4096 b + 4095`: the last token of batch `b`.  So the result at `[b, k]` is the matrix at `[4096 b + 4095, k]`
  (`lastRow`, `result`), the sixteen pieces written being the tiling of the `4 x 4096` result by the rectangles
  `{b} x [1024 q, 1024 q + 1024)` (`tileRect`: pairwise disjoint, covering).
-/
import proofs.«209917_g9457517986232_cont_9to1c4b_207_18_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«209917_g9457517986232_cont_9to1c4b_207_18_alg».proof.Proof.Gen.Kernel
import proofs.«209917_g9457517986232_cont_9to1c4b_207_18_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The embeddings (rank 3), the mask, the embeddings as a matrix of rows, the result: as locations of device `d`. -/
abbrev eLoc (d : Dev nD) : Loc nD τ sig := (SparseCore.T d).loc main_arg0
abbrev kLoc (d : Dev nD) : Loc nD τ sig := (SparseCore.T d).loc main_arg1
abbrev rLoc (d : Dev nD) : Loc nD τ sig := (SparseCore.T d).loc main_v0
abbrev oLoc (d : Dev nD) : Loc nD τ sig := (SparseCore.T d).loc main_v1

/-! ## The sixteen pieces of the result -/

/-- Subcore `j` writes row `j / 4`, columns `[1024 (j % 4), 1024 (j % 4) + 1024)`. -/
def tileOff (j : Fin 16) : Fin 2 → Nat := ![j.val / 4, (j.val % 4) * 1024]

theorem tileOff_inb (j : Fin 16) : ∀ a, tileOff j a + S1x1024.size a ≤ S4x4096.size a := by
  intro a
  have := j.isLt
  match a with
  | 0 => show j.val / 4 + 1 ≤ 4; omega
  | 1 => show (j.val % 4) * 1024 + 1024 ≤ 4096; omega

abbrev tileRect (j : Fin 16) : Rect S4x4096 := Rect.unit (s := S4x4096) (tileOff j) S1x1024.size (tileOff_inb j)

/-- The elements of the result subcore `j` writes. -/
def tileSet (j : Fin 16) : Finset S4x4096.Idx := (tileRect j).set

theorem mem_tileSet (j : Fin 16) (x : S4x4096.Idx) :
    x ∈ tileSet j ↔ (x 0).val = j.val / 4 ∧ (j.val % 4) * 1024 ≤ (x 1).val ∧ (x 1).val < (j.val % 4) * 1024 + 1024 := by
  unfold tileSet
  rw [Rect.mem_set_unit]
  constructor
  · intro h
    have h0 := h 0
    have h1 := h 1
    simp only [tileOff, Matrix.cons_val_zero, Matrix.cons_val_one] at h0 h1
    omega
  · intro ⟨h0, h1, h2⟩ a
    match a with
    | 0 => show j.val / 4 ≤ (x 0).val ∧ (x 0).val < j.val / 4 + 1; omega
    | 1 => show (j.val % 4) * 1024 ≤ (x 1).val ∧ (x 1).val < (j.val % 4) * 1024 + 1024; omega

theorem tiles_disjoint : ∀ i ∈ (Finset.univ : Finset (Fin 16)), ∀ j ∈ (Finset.univ : Finset (Fin 16)), i ≠ j → Disjoint (tileSet i) (tileSet j) := by
  intro i _ j _ hij
  refine Finset.disjoint_left.mpr fun x hi hj => hij (Fin.ext ?_)
  rw [mem_tileSet] at hi hj
  have := i.isLt; have := j.isLt
  omega

theorem tiles_cover : (Finset.univ : Finset (Fin 16)).biUnion tileSet = Finset.univ := by
  refine Finset.eq_univ_iff_forall.mpr fun x => Finset.mem_biUnion.mpr ?_
  have h0 : (x 0).val < 4 := (x 0).isLt
  have h1 : (x 1).val < 4096 := (x 1).isLt
  refine ⟨⟨4 * (x 0).val + (x 1).val / 1024, by omega⟩, Finset.mem_univ _, ?_⟩
  rw [mem_tileSet]
  show (x 0).val = (4 * (x 0).val + (x 1).val / 1024) / 4 ∧ ((4 * (x 0).val + (x 1).val / 1024) % 4) * 1024 ≤ (x 1).val
    ∧ (x 1).val < ((4 * (x 0).val + (x 1).val / 1024) % 4) * 1024 + 1024
  omega

/-! ## The result -/

/-- The last token's row of batch `b` in the matrix of rows, at column `k`. -/
def lastRow (x : S4x4096.Idx) : S16384x4096.Idx :=
  ix2 (⟨(x 0).val * 4096 + 4095, by have h : (x 0).val < 4 := (x 0).isLt; omega⟩ : Fin 16384) (x 1)

/-- The result array as a function of the matrix of rows: at `[b, k]` the matrix at `[4096 b + 4095, k]`. -/
def result (r : S16384x4096.Idx → Elt F .f32) : S4x4096.Idx → Elt F .f32 := fun x => r (lastRow x)

end Cert.Proof.KW

end
-- ==== Proof.WordTile.lean ====
/-
  One vector subcore's task of the kernel as printed, read at any float instance, run once at a symbolic subcore.
-/
import proofs.«209917_g9457517986232_cont_9to1c4b_207_18_alg».proof.Proof.WordSetup
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.Kernel.main_v0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S4x4096 EltTy.i32)
local notation "oW" => (Memref.whole Cert.Kernel.main_v1_scv : Memref Cert.Kernel.sig Kind.scVector Space.hbm Cert.Kernel.S4x4096 EltTy.f32)
local notation "mV" => (Memref.whole Cert.Kernel.cc0_scratch0 : Memref Cert.Kernel.sig Kind.scVector Space.vmem Cert.Kernel.S4096 EltTy.i32)
local notation "wV" => (Memref.whole Cert.Kernel.cc0_scratch1 : Memref Cert.Kernel.sig Kind.scVector Space.vmem Cert.Kernel.S1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev thr : Thread nD τ := V d (cV L) (jV L)

abbrev cA : GSem nD τ sig := (thr d L, .dma cc0_scratch2.sem)
abbrev cB : GSem nD τ sig := (thr d L, .dma cc0_scratch3.sem)
abbrev cC : GSem nD τ sig := (thr d L, .dma cc0_scoped0.sem)
abbrev cD : GSem nD τ sig := (thr d L, .dma cc0_scoped1.sem)

omit [FloatOps F] in
theorem ownSems0_V :
    (ownSems0 (thr d L) : sProp 𝕄)
      = iprop(semVal (cA d L) 0 ∗ semVal (cB d L) 0 ∗ semVal (cC d L) 0 ∗ semVal (cD d L) 0
          ∗ bigSep (((((ownCells (thr d L)).erase (cA d L)).erase (cB d L)).erase (cC d L)).erase (cD d L)) fun g => semVal g 0) := by
  unfold SparseCore.Cfg.ownSems0
  rw [SparseCore.bigSep_erase' ((mem_ownCells (g := cA d L)).mpr ⟨rfl, by
      show (SemLoc.dma cc0_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc0_scratch3.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped0.sem : SemLoc sig).isScoped .scVector = true; decide⟩⟩⟩),
    SparseCore.bigSep_erase' (Finset.mem_erase.mpr ⟨by simp [cC, cD]; decide, Finset.mem_erase.mpr ⟨by simp [cB, cD]; decide, Finset.mem_erase.mpr ⟨by simp [cA, cD]; decide,
      (mem_ownCells (g := cD d L)).mpr ⟨rfl, by show (SemLoc.dma cc0_scoped1.sem : SemLoc sig).isScoped .scVector = true; decide⟩⟩⟩⟩)]

omit [FloatOps F] in
/-- The subcore's two scratch buffers are among its own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_r (q : PosShare TreeShare) (f : Buf (Elt F) (rLoc d)) :
    ((rW).view.loc (thr d L) ↦{q} f : sProp 𝕄) = rLoc d ↦{q} f := by
  simp only [Memref.view_whole, View.set_whole]
omit [FloatOps F] in
theorem pts_k (q : PosShare TreeShare) (f : Buf (Elt F) (kLoc d)) :
    ((kW).view.loc (thr d L) ↦{q} f : sProp 𝕄) = kLoc d ↦{q} f := by
  simp only [Memref.view_whole, View.set_whole]
omit [FloatOps F] in
theorem pts_m (f : Buf (Elt F) ((thr d L).loc cc0_scratch0)) :
    ((mV).view.loc (thr d L) ↦{fullShare} f : sProp 𝕄) = (thr d L).loc cc0_scratch0 ↦{fullShare} f := by
  simp only [Memref.view_whole, View.set_whole]
omit [FloatOps F] in
theorem pts_w (f : Buf (Elt F) ((thr d L).loc cc0_scratch1)) :
    ((wV).view.loc (thr d L) ↦{fullShare} f : sProp 𝕄) = (thr d L).loc cc0_scratch1 ↦{fullShare} f := by
  simp only [Memref.view_whole, View.set_whole]

local notation "h0M" => (Memref.slice (Memref.whole Cert.Kernel.cc0_scratch0 : Memref Cert.Kernel.sig Kind.scVector Space.vmem Cert.Kernel.S4096 EltTy.i32) (Rect.unit (s := Cert.Kernel.S4096) ![0] Cert.Kernel.S2048.size Cert.Kernel.Facts₀.inb_S4096_S2048_0) (fun _ => rfl))
local notation "h1M" => (Memref.slice (Memref.whole Cert.Kernel.cc0_scratch0 : Memref Cert.Kernel.sig Kind.scVector Space.vmem Cert.Kernel.S4096 EltTy.i32) (Rect.unit (s := Cert.Kernel.S4096) ![2048] Cert.Kernel.S2048.size Cert.Kernel.Facts₀.inb_S4096_S2048_2048) (fun _ => rfl))

omit [FloatOps F] in
theorem mem_h0 (x : S4096.Idx) : x ∈ (h0M).view.set ↔ (x 0).val < 2048 := by
  rw [show (h0M).view.set = (Rect.unit (s := S4096) ![0] S2048.size inb_S4096_S2048_0).set from View.set_slice_whole _ _, Rect.mem_set_unit]
  constructor
  · intro h; have := h 0; simp only [Matrix.cons_val_zero] at this; exact (by omega)
  · intro h a; obtain rfl : a = 0 := Subsingleton.elim _ _
    show 0 ≤ (x 0).val ∧ (x 0).val < 0 + 2048; omega
omit [FloatOps F] in
theorem mem_h1 (x : S4096.Idx) : x ∈ (h1M).view.set ↔ 2048 ≤ (x 0).val := by
  rw [show (h1M).view.set = (Rect.unit (s := S4096) ![2048] S2048.size inb_S4096_S2048_2048).set from View.set_slice_whole _ _, Rect.mem_set_unit]
  have hx : (x 0).val < 4096 := (x 0).isLt
  constructor
  · intro h; have := h 0; simp only [Matrix.cons_val_zero] at this; exact (by omega)
  · intro h a; obtain rfl : a = 0 := Subsingleton.elim _ _
    show 2048 ≤ (x 0).val ∧ (x 0).val < 2048 + 2048; omega
omit [FloatOps F] in
theorem halves : (Finset.univ : Finset S4096.Idx) \ (h0M).view.set = (h1M).view.set := by
  ext x
  rw [Finset.mem_sdiff, mem_h0, mem_h1]
  simp only [Finset.mem_univ, true_and]; omega

omit [FloatOps F] in
/-- The mask scratch whole is its two halves. -/
theorem pts_m_halves (f : Buf (Elt F) ((thr d L).loc cc0_scratch0)) :
    ((thr d L).loc cc0_scratch0 ↦{fullShare} f : sProp 𝕄)
      ⊣⊢ iprop(((h0M).view.loc (thr d L) ↦[(h0M).view.set]{fullShare} f) ∗ ((h1M).view.loc (thr d L) ↦[(h1M).view.set]{fullShare} f)) := by
  have h : ((thr d L).loc cc0_scratch0 ↦{fullShare} f : sProp 𝕄) ⊣⊢ _ :=
    pointsTo_split_subset (ℓ := (thr d L).loc cc0_scratch0) (q := fullShare) (f := f) (Finset.subset_univ ((h0M).view.set))
  rw [halves] at h
  exact h

omit [FloatOps F] in
/-- An element of a view's buffer under the view reads, after one write of the whole view, a word of what was written. -/
theorem writes_whole_apply {sg : RefSig} {κ : Kind} {sp : Space} {s : Shape} {e : EltTy} {Val : EltTy → Type} (v : View sg κ sp s e) (f : v.ty.Contents Val)
    (w : (Rect.whole s).shape.Idx → Val e) {i : v.ty.Idx} (hi : i ∈ v.set) :
    ∃ y, v.writes Val f [⟨Rect.whole s, w⟩] i = _root_.cast (congrArg Val v.elt_eq.symm) (w y) := by
  obtain ⟨x, -, rfl⟩ := Finset.mem_map.mp hi
  refine ⟨x, ?_⟩
  rw [View.writes_singleton]
  have h := View.write_emb_of_mem (v := v.slice (Rect.whole s)) f w (M := Finset.univ) (x := x) (Finset.mem_univ _)
  rwa [View.emb_slice, Function.Embedding.trans_apply, Rect.emb_whole_apply] at h

omit [FloatOps F] in
/-- After one write of the whole view, the element the view places at `x` holds the word written at `x`. -/
theorem writes_whole_emb {sg : RefSig} {κ : Kind} {sp : Space} {s : Shape} {e : EltTy} {Val : EltTy → Type} (v : View sg κ sp s e) (f : v.ty.Contents Val)
    (w : (Rect.whole s).shape.Idx → Val e) (x : s.Idx) :
    v.writes Val f [⟨Rect.whole s, w⟩] (v.emb x) = _root_.cast (congrArg Val v.elt_eq.symm) (w x) := by
  rw [View.writes_singleton]
  have h := View.write_emb_of_mem (v := v.slice (Rect.whole s)) f w (M := Finset.univ) (x := x) (Finset.mem_univ _)
  rwa [View.emb_slice, Function.Embedding.trans_apply, Rect.emb_whole_apply] at h

omit [FloatOps F] in
/-- An index `y` of `[a]` matched with shape `[1, a]` is `(0, y)`. -/
theorem reshapeEquiv_ix1_1a {a : ℕ} (h : (⟨1, ![a]⟩ : Shape).numel = (⟨2, ![1, a]⟩ : Shape).numel) (y : Fin a) :
    Shape.reshapeEquiv h (ix1 y) = ix2 (⟨0, Nat.one_pos⟩ : Fin 1) y :=
  Shape.reshapeEquiv_eq_of_rowMajor h (by
    rw [Shape.rowMajor_val_two, Shape.rowMajor_val_one]
    show 0 * a + y.val = y.val
    simp only [Nat.zero_mul, Nat.zero_add])

omit [FloatOps F] in
/-- Where a one-row slice of a matrix, read as a vector, places the vector's index `y`: row `off 0`, column `off 1 + y`. -/
theorem unit_row_emb {R C : ℕ} (off : Fin 2 → ℕ) (inb : ∀ a, off a + (![1, 1024] : Fin 2 → ℕ) a ≤ (⟨2, ![R, C]⟩ : Shape).size a)
    (h : (⟨1, ![1024]⟩ : Shape).numel = (⟨2, ![1, 1024]⟩ : Shape).numel) (y : (⟨1, ![1024]⟩ : Shape).Idx) :
    ((Rect.unit (s := ⟨2, ![R, C]⟩) off ![1, 1024] inb).emb (Shape.reshapeEquiv h y) 0).val = off 0 ∧
    ((Rect.unit (s := ⟨2, ![R, C]⟩) off ![1, 1024] inb).emb (Shape.reshapeEquiv h y) 1).val = off 1 + (y 0).val := by
  obtain ⟨y0, rfl⟩ : ∃ y0 : Fin 1024, y = ix1 y0 := ⟨y 0, eq_ix1 y⟩
  rw [reshapeEquiv_ix1_1a h y0]
  constructor
  · rw [Rect.emb_apply]; show off 0 + 1 * 0 = off 0; omega
  · rw [Rect.emb_apply]; show off 1 + 1 * y0.val = off 1 + y0.val; omega

/-- Eight running lane sums, each lane of each at `n`. -/
def lanes (n : Nat) : IVec S16 32 := fun _ => BitVec.ofNat 32 n
abbrev Acc : Type := IVec S16 32 × IVec S16 32 × IVec S16 32 × IVec S16 32 × IVec S16 32 × IVec S16 32 × IVec S16 32 × IVec S16 32
def lanes8 (n : Nat) : Acc := (lanes n, lanes n, lanes n, lanes n, lanes n, lanes n, lanes n, lanes n)

/-- Before trip `k` of a summing loop over a half `M` of the mask scratch that holds ones: every lane of every
    running sum is `base + k`. -/
def sumInv (M : Memref sig .scVector .vmem S2048 .i32) (fa : Buf (Elt F) (M.view.loc (thr d L))) (base : Nat) (k : Nat) (acc : Acc) : sProp 𝕄 :=
  iprop(⌜acc = lanes8 (base + k)⌝ ∗ (M.view.loc (thr d L) ↦[M.view.set]{fullShare} fa))

omit [FloatOps F] in
/-- Every 16-word load of the first summing loop lies in the first half of the mask scratch, -/
theorem load_sub0 (k : Fin k0_t1_loop.trips) (r : Fin 8) :
    (mV).view.setOn (Rect.unit (s := S4096) (k0_off3 k (BitVec.ofNat 32 (16 * r.val))) S16.size (k0_off3_inb k r)).set ⊆ (h0M).view.set := by
  intro i hi
  obtain ⟨x, hx, rfl⟩ := Finset.mem_map.mp hi
  rw [Rect.mem_set_unit] at hx
  have hx0 := hx 0
  rw [k0_off3_eq k r] at hx0
  simp only [Matrix.cons_val_zero] at hx0
  have hk : k.val < 16 := lt_of_lt_of_le k.isLt k0_t1_abs.2.1
  have hr := r.isLt
  show (View.whole (cc0_scratch0 : Ref sig .scVector)).emb x ∈ (h0M).view.set
  rw [View.emb_whole, mem_h0]
  show (x 0).val < 2048
  omega
omit [FloatOps F] in
/-- and every one of the second loop in the second half. -/
theorem load_sub1 (k : Fin k0_t2_loop.trips) (r : Fin 8) :
    (mV).view.setOn (Rect.unit (s := S4096) (k0_off4 k (BitVec.ofNat 32 (16 * r.val))) S16.size (k0_off4_inb k r)).set ⊆ (h1M).view.set := by
  intro i hi
  obtain ⟨x, hx, rfl⟩ := Finset.mem_map.mp hi
  rw [Rect.mem_set_unit] at hx
  have hx0 := hx 0
  rw [k0_off4_eq k r] at hx0
  simp only [Matrix.cons_val_zero] at hx0
  show (View.whole (cc0_scratch0 : Ref sig .scVector)).emb x ∈ (h1M).view.set
  rw [View.emb_whole, mem_h1]
  show 2048 ≤ (x 0).val
  omega

omit [FloatOps F] in
/-- A running sum at `n` in every lane, one more in every lane after a vector of ones is added. -/
theorem add_ones (n : Nat) (h : S16.ShapeCasts S16) :
    addi (lanes n) (shapeCast S16 (fun _ : S16.Idx => (1#32 : BitVec 32)) h) = lanes (n + 1) := by
  funext i
  rw [shapeCast_self]
  show BitVec.ofNat 32 n + BitVec.ofNat 32 1 = BitVec.ofNat 32 (n + 1)
  exact (BitVec.ofNat_add n 1).symm

theorem pay9_ones (n : Nat) : k0_pay9 (F := F) (lanes n) (fun _ => (1#32 : BitVec 32)) = lanes (n + 1) := add_ones n _
theorem pay10_ones (n : Nat) : k0_pay10 (F := F) (lanes n) (fun _ => (1#32 : BitVec 32)) = lanes (n + 1) := add_ones n _
theorem pay11_ones (n : Nat) : k0_pay11 (F := F) (lanes n) (fun _ => (1#32 : BitVec 32)) = lanes (n + 1) := add_ones n _
theorem pay12_ones (n : Nat) : k0_pay12 (F := F) (lanes n) (fun _ => (1#32 : BitVec 32)) = lanes (n + 1) := add_ones n _
theorem pay13_ones (n : Nat) : k0_pay13 (F := F) (lanes n) (fun _ => (1#32 : BitVec 32)) = lanes (n + 1) := add_ones n _
theorem pay14_ones (n : Nat) : k0_pay14 (F := F) (lanes n) (fun _ => (1#32 : BitVec 32)) = lanes (n + 1) := add_ones n _
theorem pay15_ones (n : Nat) : k0_pay15 (F := F) (lanes n) (fun _ => (1#32 : BitVec 32)) = lanes (n + 1) := add_ones n _
theorem pay16_ones (n : Nat) : k0_pay16 (F := F) (lanes n) (fun _ => (1#32 : BitVec 32)) = lanes (n + 1) := add_ones n _
theorem pay17_ones (n : Nat) : k0_pay17 (F := F) (lanes n) (fun _ => (1#32 : BitVec 32)) = lanes (n + 1) := add_ones n _
theorem pay18_ones (n : Nat) : k0_pay18 (F := F) (lanes n) (fun _ => (1#32 : BitVec 32)) = lanes (n + 1) := add_ones n _
theorem pay19_ones (n : Nat) : k0_pay19 (F := F) (lanes n) (fun _ => (1#32 : BitVec 32)) = lanes (n + 1) := add_ones n _
theorem pay20_ones (n : Nat) : k0_pay20 (F := F) (lanes n) (fun _ => (1#32 : BitVec 32)) = lanes (n + 1) := add_ones n _
theorem pay21_ones (n : Nat) : k0_pay21 (F := F) (lanes n) (fun _ => (1#32 : BitVec 32)) = lanes (n + 1) := add_ones n _
theorem pay22_ones (n : Nat) : k0_pay22 (F := F) (lanes n) (fun _ => (1#32 : BitVec 32)) = lanes (n + 1) := add_ones n _
theorem pay23_ones (n : Nat) : k0_pay23 (F := F) (lanes n) (fun _ => (1#32 : BitVec 32)) = lanes (n + 1) := add_ones n _
theorem pay24_ones (n : Nat) : k0_pay24 (F := F) (lanes n) (fun _ => (1#32 : BitVec 32)) = lanes (n + 1) := add_ones n _

/-- A load from the mask scratch, through a rectangle inside a part of it that holds ones, reads ones. -/
theorem load_ones (fa : Buf (Elt F) ((thr d L).loc cc0_scratch0)) (S : Finset S4096.Idx) (hfa : ∀ i ∈ S, fa i = (1#32 : BitVec 32))
    (r : LoadRect S4096) (hr : (mV).view.setOn r.set ⊆ S) :
    (mV).view.readAt (Elt F) r fa = fun _ => (1#32 : BitVec 32) := by
  funext x
  rw [View.readAt_apply, View.read_apply]
  have hm : (mV).view.emb (r.idx x) ∈ (mV).view.setOn r.set := (View.mem_setOn _).mpr (r.idx_mem x)
  rw [hfa _ (hr hm)]
  exact cast_eq _ _

theorem k0_t1_body_run (fa : Buf (Elt F) ((h0M).view.loc (thr d L))) (hfa : ∀ i ∈ (h0M).view.set, fa i = (1#32 : BitVec 32))
    (k : Fin k0_t1_loop.trips) (acc : Acc) :
    sumInv (F := F) d L h0M fa 0 k.val acc
      ⊢ wp frame (wpE (defs₀ (F := F)) 𝒱₀ (thr d L) none) Set.univ
          (k0_t1_body L rW (Memref.isWhole_whole _) kW (Memref.isWhole_whole _) oW (Memref.isWhole_whole _)
            mV (Memref.isWhole_whole _) wV (Memref.isWhole_whole _) cc0_scratch2 cc0_scratch3 cc0_scoped0 cc0_scoped1 k acc)
          (sumInv (F := F) d L h0M fa 0 (k.val + 1)) := by
  unfold sumInv
  iintro ⟨%hacc, Hm⟩
  subst hacc
  unfold k0_t1_body lanes8
  have hl0 := load_sub0 k 0
  have hl1 := load_sub0 k 1
  have hl2 := load_sub0 k 2
  have hl3 := load_sub0 k 3
  have hl4 := load_sub0 k 4
  have hl5 := load_sub0 k 5
  have hl6 := load_sub0 k 6
  have hl7 := load_sub0 k 7
  sl_exec
  rw [wp_ret]; imodintro
  isplitr
  · ipureintro
    exact Prod.ext ((congrArg (k0_pay9 (F := F) (lanes _)) (load_ones (F := F) d L fa _ hfa _ hl0)).trans (pay9_ones _))
      (Prod.ext ((congrArg (k0_pay10 (F := F) (lanes _)) (load_ones (F := F) d L fa _ hfa _ hl1)).trans (pay10_ones _))
      (Prod.ext ((congrArg (k0_pay11 (F := F) (lanes _)) (load_ones (F := F) d L fa _ hfa _ hl2)).trans (pay11_ones _))
      (Prod.ext ((congrArg (k0_pay12 (F := F) (lanes _)) (load_ones (F := F) d L fa _ hfa _ hl3)).trans (pay12_ones _))
      (Prod.ext ((congrArg (k0_pay13 (F := F) (lanes _)) (load_ones (F := F) d L fa _ hfa _ hl4)).trans (pay13_ones _))
      (Prod.ext ((congrArg (k0_pay14 (F := F) (lanes _)) (load_ones (F := F) d L fa _ hfa _ hl5)).trans (pay14_ones _))
      (Prod.ext ((congrArg (k0_pay15 (F := F) (lanes _)) (load_ones (F := F) d L fa _ hfa _ hl6)).trans (pay15_ones _))
        ((congrArg (k0_pay16 (F := F) (lanes _)) (load_ones (F := F) d L fa _ hfa _ hl7)).trans (pay16_ones _))))))))
  · iexact Hm

theorem k0_t2_body_run (fa : Buf (Elt F) ((h1M).view.loc (thr d L))) (hfa : ∀ i ∈ (h1M).view.set, fa i = (1#32 : BitVec 32))
    (k : Fin k0_t2_loop.trips) (acc : Acc) :
    sumInv (F := F) d L h1M fa 16 k.val acc
      ⊢ wp frame (wpE (defs₀ (F := F)) 𝒱₀ (thr d L) none) Set.univ
          (k0_t2_body L rW (Memref.isWhole_whole _) kW (Memref.isWhole_whole _) oW (Memref.isWhole_whole _)
            mV (Memref.isWhole_whole _) wV (Memref.isWhole_whole _) cc0_scratch2 cc0_scratch3 cc0_scoped0 cc0_scoped1 k acc)
          (sumInv (F := F) d L h1M fa 16 (k.val + 1)) := by
  unfold sumInv
  iintro ⟨%hacc, Hm⟩
  subst hacc
  unfold k0_t2_body lanes8
  have hl0 := load_sub1 k 0
  have hl1 := load_sub1 k 1
  have hl2 := load_sub1 k 2
  have hl3 := load_sub1 k 3
  have hl4 := load_sub1 k 4
  have hl5 := load_sub1 k 5
  have hl6 := load_sub1 k 6
  have hl7 := load_sub1 k 7
  sl_exec
  rw [wp_ret]; imodintro
  isplitr
  · ipureintro
    exact Prod.ext ((congrArg (k0_pay17 (F := F) (lanes _)) (load_ones (F := F) d L fa _ hfa _ hl0)).trans (pay17_ones _))
      (Prod.ext ((congrArg (k0_pay18 (F := F) (lanes _)) (load_ones (F := F) d L fa _ hfa _ hl1)).trans (pay18_ones _))
      (Prod.ext ((congrArg (k0_pay19 (F := F) (lanes _)) (load_ones (F := F) d L fa _ hfa _ hl2)).trans (pay19_ones _))
      (Prod.ext ((congrArg (k0_pay20 (F := F) (lanes _)) (load_ones (F := F) d L fa _ hfa _ hl3)).trans (pay20_ones _))
      (Prod.ext ((congrArg (k0_pay21 (F := F) (lanes _)) (load_ones (F := F) d L fa _ hfa _ hl4)).trans (pay21_ones _))
      (Prod.ext ((congrArg (k0_pay22 (F := F) (lanes _)) (load_ones (F := F) d L fa _ hfa _ hl5)).trans (pay22_ones _))
      (Prod.ext ((congrArg (k0_pay23 (F := F) (lanes _)) (load_ones (F := F) d L fa _ hfa _ hl6)).trans (pay23_ones _))
        ((congrArg (k0_pay24 (F := F) (lanes _)) (load_ones (F := F) d L fa _ hfa _ hl7)).trans (pay24_ones _))))))))
  · iexact Hm

local notation "oSl(" L ")" => (Memref.squeeze (Memref.slice (Memref.whole Cert.Kernel.main_v1_scv : Memref Cert.Kernel.sig Kind.scVector Space.hbm Cert.Kernel.S4x4096 EltTy.f32) (Rect.unit (s := Cert.Kernel.S4x4096) (Cert.Kernel.k0_off6 L) Cert.Kernel.S1x1024.size (Cert.Kernel.Gen.k0_off6_inb L)) (fun _ => rfl)) Cert.Kernel.S1024 Cert.Kernel.Gen.squeezes_S1x1024_S1024)

omit [FloatOps F] in
/-- The result rectangle a subcore slices is its tile: row `j / 4`, columns from `1024 (j % 4)`. -/
theorem k0_off6_eq : ∀ L : grid0.Coords, k0_off6 L = tileOff (jL L) := by decide +kernel

omit [FloatOps F] in
theorem unit_congr {s : Shape} {o o' : Fin s.rank → Nat} (h : o = o') (sz : Fin s.rank → Nat) (i : ∀ a, o a + sz a ≤ s.size a) (i' : ∀ a, o' a + sz a ≤ s.size a) :
    Rect.unit (s := s) o sz i = Rect.unit (s := s) o' sz i' := by subst h; rfl

omit [FloatOps F] in
theorem set_oSl : (oSl(L)).view.set = tileSet (jL L) := by
  show (((View.whole (main_v1_scv : Ref sig .scVector)).slice (Rect.unit (s := S4x4096) (k0_off6 L) S1x1024.size (k0_off6_inb L))).reshape S1024 squeezes_S1x1024_S1024.numel_eq).set
    = (tileRect (jL L)).set
  rw [View.set_reshape, View.set_slice_whole]
  exact congrArg (fun r : Rect S4x4096 => r.set) (unit_congr (s := S4x4096) (k0_off6_eq L) _ _ _)

omit [FloatOps F] in
theorem pts_o (f : Buf (Elt F) (oLoc d)) :
    ((oSl(L)).view.loc (thr d L) ↦[(oSl(L)).view.set]{fullShare} f : sProp 𝕄) = oLoc d ↦[tileSet (jL L)]{fullShare} f := by
  rw [set_oSl]

omit [FloatOps F] in
/-- Where every lane of the total is `256` the row copied, `4096 b + 4095`, and its quarter lie inside the matrix of rows. -/
theorem chk_256 : ∀ L : grid0.Coords, k0_chk1 L 256#32 256#32 256#32 256#32 256#32 256#32 256#32 256#32 256#32 256#32 256#32 256#32 256#32 256#32 256#32 256#32 := by
  decide +kernel

omit [FloatOps F] in
/-- Where every lane of the total is `256` the row a subcore copies is the last token's of its batch row, at its quarter. -/
theorem k0_off5_256 : ∀ L : grid0.Coords,
    k0_off5 L 256#32 256#32 256#32 256#32 256#32 256#32 256#32 256#32 256#32 256#32 256#32 256#32 256#32 256#32 256#32 256#32
      = ![(jL L).val / 4 * 4096 + 4095, (jL L).val % 4 * 1024] := by
  decide +kernel

omit [FloatOps F] in
/-- The word a subcore's row copy reads for position `y` of its piece is the last token's row at the piece's column. -/
theorem row_emb_eq (off5 : Fin 2 → ℕ) (h5 : off5 = ![(jL L).val / 4 * 4096 + 4095, (jL L).val % 4 * 1024])
    (inb5 : ∀ a, off5 a + S1x1024.size a ≤ S16384x4096.size a) (y : S1024.Idx) :
    (Memref.squeeze (Memref.slice rW (Rect.unit (s := S16384x4096) off5 S1x1024.size inb5) (fun _ => rfl)) S1024 squeezes_S1x1024_S1024).view.emb y
      = lastRow ((oSl(L)).view.emb y) := by
  subst h5
  have h5' := unit_row_emb (R := 16384) (C := 4096) _ inb5 squeezes_S1x1024_S1024.numel_eq y
  have h6' := unit_row_emb (R := 4) (C := 4096) (k0_off6 L) (k0_off6_inb L) squeezes_S1x1024_S1024.numel_eq y
  have e6 := k0_off6_eq L
  funext a
  apply Fin.ext
  match a with
  | ⟨0, _⟩ =>
    show ((Rect.unit (s := S16384x4096) _ S1x1024.size inb5).emb (Shape.reshapeEquiv squeezes_S1x1024_S1024.numel_eq y) 0).val
      = ((Rect.unit (s := S4x4096) (k0_off6 L) S1x1024.size (k0_off6_inb L)).emb (Shape.reshapeEquiv squeezes_S1x1024_S1024.numel_eq y) 0).val * 4096 + 4095
    rw [h5'.1, h6'.1, e6]; rfl
  | ⟨1, _⟩ =>
    show ((Rect.unit (s := S16384x4096) _ S1x1024.size inb5).emb (Shape.reshapeEquiv squeezes_S1x1024_S1024.numel_eq y) 1).val
      = ((Rect.unit (s := S4x4096) (k0_off6 L) S1x1024.size (k0_off6_inb L)).emb (Shape.reshapeEquiv squeezes_S1x1024_S1024.numel_eq y) 1).val
    rw [h5'.2, h6'.2, e6]; rfl

omit [FloatOps F] in
theorem trips1 : Scf.trips k0_t1_loop.lb k0_t1_loop.ub k0_t1_loop.st = 16 := by decide
omit [FloatOps F] in
theorem trips2 : Scf.trips k0_t2_loop.lb k0_t2_loop.ub k0_t2_loop.st = 16 := by decide

/-- The whole task. -/
theorem tile_body (hF : (K (F := F)).Facts) (r0 : Buf (Elt F) (rLoc d)) (km : Buf (Elt F) (kLoc d)) (fo : Buf (Elt F) (oLoc d))
    (hk : ∀ x, km x = 1#32) (qs : PosShare TreeShare)
    (O : CellTallies nD τ sig (HIx 1)) (W : Waits sig (HIx 1)) (hO : ∀ g, O g none = 0) :
    (iprop(levAts (K (F := F)).L (K (F := F)).lev ∗ emp
        ∗ ((rLoc d ↦{qs} r0) ∗ (kLoc d ↦{qs} km) ∗ oLoc d ↦[tileSet (jL L)]{fullShare} fo)
        ∗ scopedBufs (thr d L) ∗ scopedSems0 (thr d L) ∗ owes (thr d L) O W) : sProp 𝕄)
      ⊢ wp frame (wpE (defs₀ (F := F)) 𝒱₀ (thr d L) none) Set.univ
          (cc0_body L rW (Memref.isWhole_whole _) kW (Memref.isWhole_whole _) oW (Memref.isWhole_whole _)
            mV (Memref.isWhole_whole _) wV (Memref.isWhole_whole _) cc0_scratch2 cc0_scratch3 cc0_scoped0 cc0_scoped1)
          fun _ => iprop(((rLoc d ↦{qs} r0) ∗ (kLoc d ↦{qs} km) ∗ oLoc d ↦[tileSet (jL L)]{fullShare} result (F := F) r0)
            ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  simp only [k0_part1_eq_skeleton, k0_part2_eq_skeleton, k0_part3_eq_skeleton]; unfold k0_part1_skel k0_part2_skel k0_part3_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨Hr, Hk, Ho⟩, ⟨⟨%fm, Hm⟩, ⟨%fw, Hw⟩, Hbufs⟩, ⟨HsA, HsB, HsC, HsD, Hsems⟩, HO⟩
  ihave Hmw := ((K (F := F)).mayWaits_none (thr := thr d L) hO) $$ Hlv
  ihave Hr' := (Entails.of_eq (pts_r (F := F) d L _ _).symm) $$ Hr
  ihave Hk' := (Entails.of_eq (pts_k (F := F) d L _ _).symm) $$ Hk
  ihave Hm' := (pts_m_halves (F := F) d L _).1 $$ Hm
  icases Hm' with ⟨Hm0, Hm1⟩
  ihave Hw' := (Entails.of_eq (pts_w (F := F) d L _).symm) $$ Hw
  sl_exec
  -- the first half of the mask row has landed: it holds ones
  ihave Hm0 := (Entails.of_eq (pointsTo_congr (g := fun _ => (1#32 : BitVec 32)) ?h0)) $$ Hm0
  case h0 =>
    intro i hi
    obtain ⟨y, hy⟩ := writes_whole_apply _ _ _ hi
    rw [hy]
    unfold tile_body.sl.dma0
    refine (cast_eq _ _).trans ((View.read_apply _ _).trans ?_)
    rw [hk]
    exact cast_eq _ _
  sl_for (sumInv (F := F) d L h0M (fun _ => (1#32 : BitVec 32)) 0) $$ [Hm0]
  case region => exact k0_t1_body_run (F := F) d L _ (fun _ _ => rfl)
  · unfold sumInv
    isplitr
    · ipureintro; rfl
    · iexact Hm0
  iintro %acc HI
  unfold sumInv
  icases HI with ⟨%hacc, Hm0⟩
  subst hacc
  sl_exec
  -- the second half has landed: ones
  ihave Hm1 := (Entails.of_eq (pointsTo_congr (g := fun _ => (1#32 : BitVec 32)) ?h1)) $$ Hm1
  case h1 =>
    intro i hi
    obtain ⟨y, hy⟩ := writes_whole_apply _ _ _ hi
    rw [hy]
    unfold tile_body.sl.dma0_1
    refine (cast_eq _ _).trans ((View.read_apply _ _).trans ?_)
    rw [hk]
    exact cast_eq _ _
  sl_for (sumInv (F := F) d L h1M (fun _ => (1#32 : BitVec 32)) 16) $$ [Hm1]
  case region => exact k0_t2_body_run (F := F) d L _ (fun _ _ => rfl)
  · unfold sumInv
    isplitr
    · ipureintro
      exact (congrArg lanes8 (show 0 + Scf.trips k0_t1_loop.lb k0_t1_loop.ub k0_t1_loop.st = 16 + 0 by rw [trips1]) : _)
    · iexact Hm1
  iintro %acc HI
  unfold sumInv
  icases HI with ⟨%hacc, Hm1⟩
  have hacc' : acc = lanes8 32 := hacc.trans (congrArg lanes8 (show 16 + Scf.trips k0_t2_loop.lb k0_t2_loop.ub k0_t2_loop.st = 32 by rw [trips2]))
  subst hacc'
  sl_exec (disch := exact chk_256 L)
  ihave Ho' := (Entails.of_eq (pts_o (F := F) d L _).symm) $$ Ho
  sl_exec
  rw [wp_ret]; imodintro
  -- what the piece of the result holds: the last token's row at the piece's columns
  ihave Ho' := (Entails.of_eq (pointsTo_congr (g := result (F := F) r0) ?hval)) $$ Ho'
  case hval =>
    intro i hi
    obtain ⟨y, -, rfl⟩ := Finset.mem_map.mp hi
    rw [writes_whole_emb]
    unfold tile_body.sl.dma0_3
    refine (cast_eq _ _).trans ((View.read_apply _ _).trans ((cast_eq _ _).trans ?_))
    rw [View.write_emb_of_mem _ _ (Finset.mem_univ _)]
    unfold tile_body.sl.dma0_2
    refine (cast_eq _ _).trans ((View.read_apply _ _).trans ((cast_eq _ _).trans ?_))
    exact congrArg r0 (row_emb_eq L _ (k0_off5_256 L) _ y)
  ihave Ho := (Entails.of_eq (pts_o (F := F) d L _)) $$ Ho'
  ihave Hr := (Entails.of_eq (pts_r (F := F) d L _ _)) $$ Hr'
  ihave Hk := (Entails.of_eq (pts_k (F := F) d L _ _)) $$ Hk'
  ihave Hm := (pts_m_halves (F := F) d L _).2 $$ [Hm0 Hm1]
  · isplitl [Hm0] <;> iassumption
  ihave Hw := (Entails.of_eq (pts_w (F := F) d L _)) $$ Hw'
  isplitl [Hr Hk Ho]
  · isplitl [Hr]; · iexact Hr
    isplitl [Hk]; · iexact Hk
    iexact Ho
  isplitl [Hm Hw Hbufs]
  · isplitl [Hm]; · iexists _; iexact Hm
    isplitl [Hw]; · iexists _; iexact Hw
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

end Cert.Proof.KW

end
-- ==== Proof.WordPay.lean ====
/-
  What the one SparseCore call carries: the matrix of rows and the mask whole and read-only, the result whole; to
  each of the sixteen subcores a read share of the matrix and of the mask and its own rectangle of the result; back, the
  same with the rectangle holding the last token's row.
-/
import proofs.«209917_g9457517986232_cont_9to1c4b_207_18_alg».proof.Proof.WordSetup
import Idealize.ShloMosaic.Lib.Transfers

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.Kernel.main_v0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S4x4096 EltTy.i32)
local notation "oW" => (Memref.whole Cert.Kernel.main_v1_scv : Memref Cert.Kernel.sig Kind.scVector Space.hbm Cert.Kernel.S4x4096 EltTy.f32)
local notation "mV" => (Memref.whole Cert.Kernel.cc0_scratch0 : Memref Cert.Kernel.sig Kind.scVector Space.vmem Cert.Kernel.S4096 EltTy.i32)
local notation "wV" => (Memref.whole Cert.Kernel.cc0_scratch1 : Memref Cert.Kernel.sig Kind.scVector Space.vmem Cert.Kernel.S1024 EltTy.f32)

variable (m : (ℓ : Loc nD τ sig) → Buf (Elt F) ℓ)

/-- The embeddings as a matrix of `16384` rows: what the host's reshape leaves in its result buffer. -/
def rows (d : Dev nD) : Buf (Elt F) (rLoc d) :=
  shapeCast S16384x4096 (m (eLoc d)) Cert.Kernel.Gen.shapeCasts_S4x4096x4096_S16384x4096

/-- Subcore `j`'s read share of an array every subcore reads. -/
abbrev tok (j : Fin 16) : PosShare TreeShare := Transfers.shareTok fullShare 16 j

def P : (K (F := F)).Pay (nD := nD) (Val := Elt F) (Name := ℕ) (U := UU) where
  st := fun q d _ => match q with
    | 0 => iprop((rLoc d ↦{fullShare} rows m d) ∗ (kLoc d ↦{fullShare} m (kLoc d)) ∗ (oLoc d ↦{fullShare} m (oLoc d)))
  dn := fun q d _ => match q with
    | 0 => iprop((rLoc d ↦{fullShare} rows m d) ∗ (kLoc d ↦{fullShare} m (kLoc d)) ∗ (oLoc d ↦{fullShare} result (F := F) (rows m d)))
  go := fun q d _ i => match q with
    | 0 => iprop((rLoc d ↦{tok (Fin.cast nSub_zero i)} rows m d) ∗ (kLoc d ↦{tok (Fin.cast nSub_zero i)} m (kLoc d))
        ∗ (oLoc d ↦[tileSet (Fin.cast nSub_zero i)]{fullShare} m (oLoc d)))
  td := fun q d _ i => match q with
    | 0 => iprop((rLoc d ↦{tok (Fin.cast nSub_zero i)} rows m d) ∗ (kLoc d ↦{tok (Fin.cast nSub_zero i)} m (kLoc d))
        ∗ (oLoc d ↦[tileSet (Fin.cast nSub_zero i)]{fullShare} result (F := F) (rows m d)))
  x := fun _ _ => iprop(emp)

instance P_storable : (P (F := F) m).IsStorable where
  st q d _ := match q with
    | 0 => (inferInstance : BI.Storable (upEmb : UEmb _ 𝕄)
        iprop((rLoc d ↦{fullShare} rows m d) ∗ (kLoc d ↦{fullShare} m (kLoc d)) ∗ (oLoc d ↦{fullShare} m (oLoc d))))
  dn q d _ := match q with
    | 0 => (inferInstance : BI.Storable (upEmb : UEmb _ 𝕄)
        iprop((rLoc d ↦{fullShare} rows m d) ∗ (kLoc d ↦{fullShare} m (kLoc d)) ∗ (oLoc d ↦{fullShare} result (F := F) (rows m d))))
  go q d _ i := match q with
    | 0 => (inferInstance : BI.Storable (upEmb : UEmb _ 𝕄)
        iprop((rLoc d ↦{tok (Fin.cast nSub_zero i)} rows m d) ∗ (kLoc d ↦{tok (Fin.cast nSub_zero i)} m (kLoc d))
          ∗ (oLoc d ↦[tileSet (Fin.cast nSub_zero i)]{fullShare} m (oLoc d))))
  td q d _ i := match q with
    | 0 => (inferInstance : BI.Storable (upEmb : UEmb _ 𝕄)
        iprop((rLoc d ↦{tok (Fin.cast nSub_zero i)} rows m d) ∗ (kLoc d ↦{tok (Fin.cast nSub_zero i)} m (kLoc d))
          ∗ (oLoc d ↦[tileSet (Fin.cast nSub_zero i)]{fullShare} result (F := F) (rows m d))))

end Cert.Proof.KW

end
-- ==== Proof.WordObl.lean ====
/-
  The task of `WordTile` as the launch theorem's obligation for the one SparseCore call: what the call hands subcore
  `i` — read shares of the matrix of rows and of the mask, its rectangle of the result — is what the task needs, and what the
  task leaves — the rectangle at the last token's row — is what the call takes back.
-/
import proofs.«209917_g9457517986232_cont_9to1c4b_207_18_alg».proof.Proof.WordTile
import proofs.«209917_g9457517986232_cont_9to1c4b_207_18_alg».proof.Proof.WordPay

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "rW" => (Memref.whole Cert.Kernel.main_v0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S4x4096 EltTy.i32)
local notation "oW" => (Memref.whole Cert.Kernel.main_v1_scv : Memref Cert.Kernel.sig Kind.scVector Space.hbm Cert.Kernel.S4x4096 EltTy.f32)
local notation "mV" => (Memref.whole Cert.Kernel.cc0_scratch0 : Memref Cert.Kernel.sig Kind.scVector Space.vmem Cert.Kernel.S4096 EltTy.i32)
local notation "wV" => (Memref.whole Cert.Kernel.cc0_scratch1 : Memref Cert.Kernel.sig Kind.scVector Space.vmem Cert.Kernel.S1024 EltTy.f32)

variable (m : (ℓ : Loc nD τ sig) → Buf (Elt F) ℓ) [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          rW (Memref.isWhole_whole _) kW (Memref.isWhole_whole _) oW (Memref.isWhole_whole _)
          mV (Memref.isWhole_whole _) wV (Memref.isWhole_whole _) cc0_scratch2 cc0_scratch3 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Where the mask holds ones, every subcore's task meets the call's obligation. -/
theorem tileObl (hF : (K (F := F)).Facts) (hones : ∀ (d : Dev nD) x, m (kLoc d) x = (1#32 : BitVec 32)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) hF (rows m d) (m (kLoc d)) (m (oLoc d)) (hones d) _ O W hO).trans
    (wp_mono frame _ _ fun _ => obl_post)

end Cert.Proof.KW

end
-- ==== Proof.WordLaunch.lean ====
/-
  The launch side of the certificate of the kernel as printed, read at any float instance: how the one SparseCore call's operands are dealt to the
  sixteen vector subcores and gathered back, the launch element of the ghost state, @main on the TensorCore (the host's
  reshape of the embeddings into a matrix of rows, then the call), what @main leaves read off the final memory, and the
  program's run from each subcore's task taken as proved.
-/
import proofs.«209917_g9457517986232_cont_9to1c4b_207_18_alg».proof.Proof.WordPay
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Transfers

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg) [FloatOps F]

/-! ## The one call's operands dealt to the sixteen tasks, and gathered back -/

omit [FloatOps F] in
/-- A family over the sixteen tasks, indexed by the configuration's task count, is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The result whole is its sixteen rectangles: they are pairwise disjoint and cover it. -/
theorem oPts_tiles (d : Dev nD) (f : Buf (Elt F) (oLoc d)) :
    (oLoc d ↦{fullShare} f : sProp 𝕄) = bigSep Finset.univ fun i : Fin 16 => oLoc d ↦[tileSet i]{fullShare} f := by
  rw [← pointsTo_biUnion Finset.univ (ℓ := oLoc d) tileSet tiles_disjoint, tiles_cover]; try rfl

omit [FloatOps F] in
/-- The matrix of rows and the mask go out as sixteen read shares (the remainders stay behind and are joined with the
    shares when they come back); the result goes out as its sixteen rectangles and comes back as the same rectangles
    of the one function `result (rows m d)`. -/
theorem vecSplit : (K (F := F)).VecSplit' (P m) 0 := by
  intro d c
  show iprop((rLoc d ↦{fullShare} rows m d) ∗ (kLoc d ↦{fullShare} m (kLoc d)) ∗ (oLoc d ↦{fullShare} m (oLoc d)))
    ⊢ |={Set.univ}=> iprop(
      (bigSep Finset.univ fun i : Fin ((K (F := F)).nSub 0) =>
        iprop((rLoc d ↦{tok (Fin.cast nSub_zero i)} rows m d) ∗ (kLoc d ↦{tok (Fin.cast nSub_zero i)} m (kLoc d)) ∗ (oLoc d ↦[tileSet (Fin.cast nSub_zero i)]{fullShare} m (oLoc d))))
      ∗ ((bigSep Finset.univ fun i : Fin ((K (F := F)).nSub 0) =>
          iprop((rLoc d ↦{tok (Fin.cast nSub_zero i)} rows m d) ∗ (kLoc d ↦{tok (Fin.cast nSub_zero i)} m (kLoc d)) ∗ (oLoc d ↦[tileSet (Fin.cast nSub_zero i)]{fullShare} result (F := F) (rows m d))))
          -∗ iprop((rLoc d ↦{fullShare} rows m d) ∗ (kLoc d ↦{fullShare} m (kLoc d)) ∗ (oLoc d ↦{fullShare} result (F := F) (rows m d)))))
  rw [bigSep_tasks (F := F) (fun i => iprop((rLoc d ↦{tok i} rows m d) ∗ (kLoc d ↦{tok i} m (kLoc d)) ∗ (oLoc d ↦[tileSet i]{fullShare} m (oLoc d)))),
    bigSep_tasks (F := F) (fun i => iprop((rLoc d ↦{tok i} rows m d) ∗ (kLoc d ↦{tok i} m (kLoc d)) ∗ (oLoc d ↦[tileSet i]{fullShare} result (F := F) (rows m d)))),
    bigSep_sep', bigSep_sep', bigSep_sep', bigSep_sep', oPts_tiles, oPts_tiles]
  iintro ⟨Hr, Hk, Ho⟩
  ihave Hr' := (Transfers.pointsTo_toks_split fullShare 16) $$ Hr
  icases Hr' with ⟨Hrd, Hrt⟩
  ihave Hk' := (Transfers.pointsTo_toks_split fullShare 16) $$ Hk
  icases Hk' with ⟨Hkd, Hkt⟩
  imodintro
  isplitl [Hrt Hkt Ho]
  · isplitl [Hrt]; · iexact Hrt
    isplitl [Hkt]; · iexact Hkt
    iexact Ho
  iintro ⟨Hrt, Hkt, Ho⟩
  isplitl [Hrd Hrt]
  · iapply (Transfers.pointsTo_toks_join fullShare 16)
    isplitl [Hrd]; · iexact Hrd
    iexact Hrt
  isplitl [Hkd Hkt]
  · iapply (Transfers.pointsTo_toks_join fullShare 16)
    isplitl [Hkd]; · iexact Hkd
    iexact Hkt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, read off the final memory -/

/-- What @main leaves the claim: the embeddings and the mask at their launch contents, the result at `result (rows m d)`. -/
abbrev FIN (d : Dev nD) : sProp 𝕄 :=
  iprop((eLoc d ↦{fullShare} m (eLoc d)) ∗ (kLoc d ↦{fullShare} m (kLoc d)) ∗ (oLoc d ↦{fullShare} result (F := F) (rows m d)))

def fq (d : Dev nD) (s' : Phys nD τ sig (Elt F)) : Prop :=
  s'.mem.mem (eLoc d) = m (eLoc d) ∧ s'.mem.mem (kLoc d) = m (kLoc d) ∧ s'.mem.mem (oLoc d) = result (rows m d)

omit [FloatOps F] in
theorem hfin (d : Dev nD) (s' : Phys nD τ sig (Elt F)) : iprop(FIN m d ∗ SI s') ⊢ (⌜fq m d s'⌝ : sProp 𝕄) := by
  iintro ⟨⟨He, Hk, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := oLoc d) (I := Finset.univ) (q := fullShare) (f := result (F := F) (rows m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## @main on the TensorCore -/

abbrev eR : DevRef τ sig := Proc.devRef .tc (main_arg0 : Ref sig .tc)
abbrev kR : DevRef τ sig := Proc.devRef .tc (main_arg1 : Ref sig .tc)
abbrev rR : DevRef τ sig := Proc.devRef .tc (main_v0 : Ref sig .tc)
abbrev oR : DevRef τ sig := Proc.devRef .tc (main_v1 : Ref sig .tc)
/-- The host's reshape of the embeddings into the matrix of rows. -/
abbrev opR : HloOp τ sig (Elt F) := StableHlo.reshape main_arg0 main_v0 rfl shapeCasts_S4x4096x4096_S16384x4096

/-- The TensorCore's arrays, all unscoped: the embeddings, the mask, the matrix of rows, the result. -/
abbrev B4 : Finset (DevRef τ sig) := {eR, kR, rR, oR}

omit [FloatOps F] in
theorem held_B4 (d : Dev nD) (W : Valuation τ sig (Elt F)) :
    (held (T d) B4 W : sProp 𝕄) = iprop((eLoc d ↦{fullShare} W eR) ∗ (kLoc d ↦{fullShare} W kR) ∗ (rLoc d ↦{fullShare} W rR)
      ∗ oLoc d ↦{fullShare} W oR) := by
  unfold held B4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (kLoc d ↦{fullShare} W main_arg1)
      ∗ (rLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) B4 (V0 m d) := by
  rw [unscopedBufs_eq, held_B4]; rfl

omit [FloatOps F] in
theorem hR : (opR (F := F)).bufs ⊆ B4 := show ({eR, rR} : Finset (DevRef τ sig)) ⊆ B4 by decide

omit [FloatOps F] in
/-- After the reshape the matrix's buffer holds the embeddings' elements in row-major order at the matrix's shape. -/
theorem reshape_rows (d : Dev nD) : (opR (F := F)).result (V0 m d) rR = rows m d :=
  (StableHlo.reshape_result main_arg0 main_v0 rfl shapeCasts_S4x4096x4096_S16384x4096 ⟨by decide, rfl⟩ ⟨by decide, rfl⟩ (V0 m d)).trans rfl

omit [FloatOps F] in
/-- The four arrays after the reshape: the matrix of rows written, the others as launched. -/
theorem held_after (d : Dev nD) :
    (held (T d) B4 ((opR (F := F)).result (V0 m d)) : sProp 𝕄)
      = iprop((eLoc d ↦{fullShare} m (eLoc d)) ∗ (kLoc d ↦{fullShare} m (kLoc d)) ∗ (rLoc d ↦{fullShare} rows m d)
        ∗ oLoc d ↦{fullShare} m (oLoc d)) := by
  rw [held_B4, (opR (F := F)).result_of_not_mem (V0 m d) (b := eR) (show eR ∉ ({rR} : Finset (DevRef τ sig)) by decide),
    (opR (F := F)).result_of_not_mem (V0 m d) (b := kR) (show kR ∉ ({rR} : Finset (DevRef τ sig)) by decide),
    (opR (F := F)).result_of_not_mem (V0 m d) (b := oR) (show oR ∉ ({rR} : Finset (DevRef τ sig)) by decide),
    reshape_rows]
  rfl

omit [FloatOps F] in
theorem st0_eq (d : Dev nD) : (bigSep Finset.univ fun c : Fin ((K (F := F)).nCore 0) => (P m).st 0 d c)
    = iprop((rLoc d ↦{fullShare} rows m d) ∗ (kLoc d ↦{fullShare} m (kLoc d)) ∗ (oLoc d ↦{fullShare} m (oLoc d))) :=
  bigSep_univ_of_subsingleton (0 : Fin 1)
omit [FloatOps F] in
theorem dn0_eq (d : Dev nD) : (bigSep Finset.univ fun c : Fin ((K (F := F)).nCore 0) => (P m).dn 0 d c)
    = iprop((rLoc d ↦{fullShare} rows m d) ∗ (kLoc d ↦{fullShare} m (kLoc d)) ∗ (oLoc d ↦{fullShare} result (F := F) (rows m d))) :=
  bigSep_univ_of_subsingleton (0 : Fin 1)

/-- @main on device `d`'s TensorCore: the reshape (over the four arrays held whole), then the one call, which takes the
    matrix of rows, the mask and the result and hands them back with the result written; the embeddings kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := B4) hR (V := V0 m d)) $$ [Hb Hheld]
  · isplitl [Hb]; · iexact Hb
    iexact Hheld
  iintro ⟨Hb, Hheld⟩
  ihave Hh := (Entails.of_eq (held_after (F := F) m d)) $$ Hheld
  icases Hh with ⟨He, Hk, Hr, Ho⟩
  rw [wp_ret]; imodintro
  iapply ((K (F := F)).wp_run (D (F := F)) 𝒱 (EH := EH) (P := P m) κ d 0) $$ [Hst He Hk Hr Ho]
  isplitr; · iexact Hctx
  isplitl [Hst]; · iexact Hst
  isplitl [Hk Hr Ho]
  · rw [st0_eq]
    isplitl [Hr]; · iexact Hr
    isplitl [Hk]; · iexact Hk
    iexact Ho
  iintro ⟨Hst, Hdn⟩
  ihave Hdn' := (Entails.of_eq (dn0_eq m d)) $$ Hdn
  icases Hdn' with ⟨-, Hk, Ho⟩
  imodintro
  isplitl [Hst]; · iexact Hst
  isplitl [He]; · iexact He
  isplitl [Hk]; · iexact Hk
  iexact Ho

/-! ## The program's run -/

def QC : PUnit × MemSt nD τ sig (Elt F) → Prop := fun r => ∀ c : Dev nD,
  r.2.mem (eLoc c) = m (eLoc c) ∧ r.2.mem (kLoc c) = m (kLoc c) ∧ r.2.mem (oLoc c) = result (rows m c)

/-- Given each vector subcore's task proved, every weakly fair execution of the program terminates with the embeddings
    and the mask unchanged and the result at `result (rows m c)` on every device. -/
theorem run_main [∀ e, Nonempty (Elt F e)] (tObl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tObl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KW

end
-- ==== Proof.lean ====
/-
  The five claims of the certificate.

  The kernel picks, for each batch row `b`, the embedding of its last token: sixteen vector subcores each sum the 4096 mask
  words of one batch row to `total` and copy a quarter of row `4096 b + total - 1` of the embeddings, read as a matrix of
  `16384` rows, into the same quarter of row `b` of the result.  The reference gathers `embeddings[b, sum(mask[b]) - 1, :]`.
  The precondition says every mask word is one, so on both sides the sum is `4096`, the index `4095`, and the result at
  `[b, k]` is `embeddings[b, 4095, k]`: on the kernel's side because row `4096 b + 4095`, column `k` of the matrix is, in
  row-major order, position `[b, 4095, k]` of the rank-3 array; on the reference's by reading its sum, its index pairs
  and its gather one operation at a time.  No arithmetic on floats happens on either side: the equation is one of indices.

  The frames: the kernel's three kinds of thread — the TensorCore, the sequencer, the sixteen subcores — run to the end from
  any memory in which the mask holds ones (the row a subcore copies is then inside the matrix), the arguments read only
  through shares and handed back whole; the reference's frame is its run with the result dropped.  The idealization
  rewrote no operation, so what it preserves is the empty conjunction.
-/
import proofs.«209917_g9457517986232_cont_9to1c4b_207_18_alg».proof.Defs
import proofs.«209917_g9457517986232_cont_9to1c4b_207_18_alg».proof.Proof.Gen.Kernel
import proofs.«209917_g9457517986232_cont_9to1c4b_207_18_alg».proof.Proof.Gen.Kernel.Skeleton
import proofs.«209917_g9457517986232_cont_9to1c4b_207_18_alg».proof.Proof.Gen.KernelIdeal
import proofs.«209917_g9457517986232_cont_9to1c4b_207_18_alg».proof.Proof.Gen.KernelIdeal.Skeleton
import proofs.«209917_g9457517986232_cont_9to1c4b_207_18_alg».proof.Proof.Gen.ReferenceIdeal
import proofs.«209917_g9457517986232_cont_9to1c4b_207_18_alg».proof.Proof.Gen.Pre_input_domain
import proofs.«209917_g9457517986232_cont_9to1c4b_207_18_alg».proof.Proof.Gen.ReferenceIdeal.Run
import proofs.«209917_g9457517986232_cont_9to1c4b_207_18_alg».proof.Proof.Gen.ReferenceIdeal.Read
import proofs.«209917_g9457517986232_cont_9to1c4b_207_18_alg».proof.Proof.PreOnes
import proofs.«209917_g9457517986232_cont_9to1c4b_207_18_alg».proof.Proof.RefValue
import proofs.«209917_g9457517986232_cont_9to1c4b_207_18_alg».proof.Proof.ReshapeRow
import proofs.«209917_g9457517986232_cont_9to1c4b_207_18_alg».proof.Proof.IdealObl
import proofs.«209917_g9457517986232_cont_9to1c4b_207_18_alg».proof.Proof.IdealLaunch
import proofs.«209917_g9457517986232_cont_9to1c4b_207_18_alg».proof.Proof.WordObl
import proofs.«209917_g9457517986232_cont_9to1c4b_207_18_alg».proof.Proof.WordLaunch
import Idealize.ShloMosaic.Adequacy
import Idealize.ShloMosaic.Init

noncomputable section

namespace Cert.Proof

open Idealize.ShloMosaic Idealize.SL.Sem

/-- The word-level kernel runs, its arguments unchanged: its run with the result's value dropped. -/
theorem frame_k : Cert.frame_Kernel := fun m ρ hpre =>
  (θ_run Cert.Kernel.defs _ _).mono (fun _ h c => ⟨(h c).1, (h c).2.1⟩)
    (KW.run_main (F := Bits) m ρ (KW.tileObl m KW.facts fun d => Cert.Proof.PreOnes.mask_ones _ _ (hpre d)))

/-- The idealized kernel likewise. -/
theorem frame_ki : Cert.frame_KernelIdeal := fun m ρ hpre =>
  (θ_run Cert.KernelIdeal.defs _ _).mono (fun _ h c => ⟨(h c).1, (h c).2.1⟩)
    (KI.run_main (F := Ideal) m ρ (KI.tileObl m KI.facts fun d => Cert.Proof.PreOnes.mask_ones _ _ (hpre d)))

/-- The reference's frame is its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `embeddings[b, 4095, k]` at `[b, k]`: the kernel's result is the matrix of rows at the
    last token's row, which is that element of the rank-3 array; the reference's gather reads the same element. -/
theorem algebraic : Cert.algebraic_KernelIdeal_ReferenceIdeal := by
  intro m ρ m' ρ' hpre hagree
  have hones : ∀ (d : Dev Cert.KernelIdeal.nD) x, m (KI.kLoc d) x = (1#32 : BitVec 32) :=
    fun d => Cert.Proof.PreOnes.mask_ones _ _ (hpre d)
  refine ⟨fun c => KI.result (F := Ideal) (KI.rows m c), ?_, ?_⟩
  · exact (θ_run Cert.KernelIdeal.defs _ _).mono (fun _ h c => ⟨(h c).2.2, (h c).1, (h c).2.1⟩)
      (KI.run_main (F := Ideal) m ρ (KI.tileObl m KI.facts hones))
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.Proof.RefValue.ref_eq_run (F := Ideal) _ _ (hones c)).trans
      (funext fun x => (KI.reshape_lastRow (F := Ideal) _ _ x).symm)

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
